-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x768 : Shape := ⟨3, ![16, 4096, 768]⟩
abbrev S768 : Shape := ⟨1, ![768]⟩
abbrev S768x64 : Shape := ⟨2, ![768, 64]⟩
abbrev S64 : Shape := ⟨1, ![64]⟩
abbrev S64x768 : Shape := ⟨2, ![64, 768]⟩
abbrev S_ : Shape := ⟨0, ![]⟩

class Facts : Prop where
  bcast_S_S16x4096x768 : S_.BroadcastsInDim S16x4096x768 (![] : Fin 0 → Fin S16x4096x768.rank)
  reducesTo_S16x4096x768_S_d0_1_2 : S16x4096x768.ReducesTo [0, 1, 2] S_
  h_S_ : 0 < S_.numel
  bcast_S_S768 : S_.BroadcastsInDim S768 (![] : Fin 0 → Fin S768.rank)
  reducesTo_S768_S_d0 : S768.ReducesTo [0] S_
  bcast_S_S768x64 : S_.BroadcastsInDim S768x64 (![] : Fin 0 → Fin S768x64.rank)
  reducesTo_S768x64_S_d0_1 : S768x64.ReducesTo [0, 1] S_
  bcast_S_S64 : S_.BroadcastsInDim S64 (![] : Fin 0 → Fin S64.rank)
  reducesTo_S64_S_d0 : S64.ReducesTo [0] S_
  bcast_S_S64x768 : S_.BroadcastsInDim S64x768 (![] : Fin 0 → Fin S64x768.rank)
  reducesTo_S64x768_S_d0_1 : S64x768.ReducesTo [0, 1] S_

variable [Facts]

def fn_part1 {F : FTy → Type} [FloatOps F] (main_arg4 : FVec F S64 .f32) (main_arg5 : FVec F S64x768 .f32) (main_arg6 : FVec F S768 .f32) (main_v13 : IVec S_ 1) (main_v16 : IVec S768x64 1) : IVec S_ 1 :=
  let main_c_5 : IVec S_ 1 := constantI S_ 1 1#1
  let main_v17 : IVec S_ 1 := (fun x v => Host.reduce IntOp.andi x v reducesTo_S768x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x768 .f32 := Host.absf main_arg5
  let main_cst_8 : FVec F S_ .f32 := constant S_ .f32 0x7F800000#32
  let main_v25 : FVec F S64x768 .f32 := broadcastInDim S64x768 ![] bcast_S_S64x768 main_cst_8
  let main_v26 : IVec S64x768 1 := cmpf .olt main_v24 main_v25
  let main_c_9 : IVec S_ 1 := constantI S_ 1 1#1
  let main_v27 : IVec S_ 1 := (fun x v => Host.reduce IntOp.andi x v reducesTo_S64x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  main_v33

def fn {F : FTy → Type} [FloatOps F] (main_arg0 : FVec F S16x4096x768 .f32) (main_arg1 : FVec F S768 .f32) (main_arg2 : FVec F S768 .f32) (main_arg3 : FVec F S768x64 .f32) (main_arg4 : FVec F S64 .f32) (main_arg5 : FVec F S64x768 .f32) (main_arg6 : FVec F S768 .f32) : IVec S_ 1 :=
  let main_v0 : FVec F S16x4096x768 .f32 := Host.absf main_arg0
  let main_cst : FVec F S_ .f32 := constant S_ .f32 0x7F800000#32
  let main_v1 : FVec F S16x4096x768 .f32 := broadcastInDim S16x4096x768 ![] bcast_S_S16x4096x768 main_cst
  let main_v2 : IVec S16x4096x768 1 := cmpf .olt main_v0 main_v1
  let main_c : IVec S_ 1 := constantI S_ 1 1#1
  let main_v3 : IVec S_ 1 := (fun x v => Host.reduce IntOp.andi x v reducesTo_S16x4096x768_S_d0_1_2 h_S_) main_v2 main_c
  let main_v4 : FVec F S768 .f32 := Host.absf main_arg1
  let main_cst_0 : FVec F S_ .f32 := constant S_ .f32 0x7F800000#32
  let main_v5 : FVec F S768 .f32 := broadcastInDim S768 ![] bcast_S_S768 main_cst_0
  let main_v6 : IVec S768 1 := cmpf .olt main_v4 main_v5
  let main_c_1 : IVec S_ 1 := constantI S_ 1 1#1
  let main_v7 : IVec S_ 1 := (fun x v => Host.reduce IntOp.andi x v reducesTo_S768_S_d0 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x64 .f32 := Host.absf main_arg3
  let main_cst_4 : FVec F S_ .f32 := constant S_ .f32 0x7F800000#32
  let main_v15 : FVec F S768x64 .f32 := broadcastInDim S768x64 ![] bcast_S_S768x64 main_cst_4
  let main_v16 : IVec S768x64 1 := cmpf .olt main_v14 main_v15
  fn_part1 (F := F) main_arg4 main_arg5 main_arg6 main_v13 main_v16
-- ==== Kernel.lean ====
abbrev S16x4096x768 : Shape := ⟨3, ![16, 4096, 768]⟩
abbrev S768 : Shape := ⟨1, ![768]⟩
abbrev S768x64 : Shape := ⟨2, ![768, 64]⟩
abbrev S64 : Shape := ⟨1, ![64]⟩
abbrev S64x768 : Shape := ⟨2, ![64, 768]⟩
abbrev S65536x768 : Shape := ⟨2, ![65536, 768]⟩
abbrev S2048x768 : Shape := ⟨2, ![2048, 768]⟩
abbrev S512x768 : Shape := ⟨2, ![512, 768]⟩
abbrev S512 : Shape := ⟨1, ![512]⟩
abbrev S512x1 : Shape := ⟨2, ![512, 1]⟩
abbrev S1x768 : Shape := ⟨2, ![1, 768]⟩
abbrev S512x64 : Shape := ⟨2, ![512, 64]⟩
abbrev S1x64 : Shape := ⟨2, ![1, 64]⟩

abbrev nBuf : Space → Nat
  | .hbm => 12
  | .vmem => 10
  | .smem => 0
  | _ => 0

abbrev bufTy : (tb : Table) → Fin (tcTables nBuf tb) → BufTy
  | .hbm, ⟨0, _⟩ => ⟨S16x4096x768, .f32⟩
  | .hbm, ⟨1, _⟩ => ⟨S768, .f32⟩
  | .hbm, ⟨2, _⟩ => ⟨S768, .f32⟩
  | .hbm, ⟨3, _⟩ => ⟨S768x64, .f32⟩
  | .hbm, ⟨4, _⟩ => ⟨S64, .f32⟩
  | .hbm, ⟨5, _⟩ => ⟨S64x768, .f32⟩
  | .hbm, ⟨6, _⟩ => ⟨S768, .f32⟩
  | .hbm, ⟨7, _⟩ => ⟨S65536x768, .f32⟩
  | .hbm, ⟨8, _⟩ => ⟨S768x64, .bf16⟩
  | .hbm, ⟨9, _⟩ => ⟨S64x768, .bf16⟩
  | .hbm, ⟨10, _⟩ => ⟨S65536x768, .f32⟩
  | .hbm, ⟨11, _⟩ => ⟨S16x4096x768, .f32⟩
  | .local _ .vmem, ⟨0, _⟩ => ⟨S2048x768, .f32⟩
  | .local _ .vmem, ⟨1, _⟩ => ⟨S2048x768, .f32⟩
  | .local _ .vmem, ⟨2, _⟩ => ⟨S768, .f32⟩
  | .local _ .vmem, ⟨3, _⟩ => ⟨S768, .f32⟩
  | .local _ .vmem, ⟨4, _⟩ => ⟨S768x64, .bf16⟩
  | .local _ .vmem, ⟨5, _⟩ => ⟨S64, .f32⟩
  | .local _ .vmem, ⟨6, _⟩ => ⟨S64x768, .bf16⟩
  | .local _ .vmem, ⟨7, _⟩ => ⟨S768, .f32⟩
  | .local _ .vmem, ⟨8, _⟩ => ⟨S2048x768, .f32⟩
  | .local _ .vmem, ⟨9, _⟩ => ⟨S2048x768, .f32⟩
  | _, _ => ⟨S16x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c4_i32 : BitVec 32 := 4#32
  let v8 : BitVec 32 := Scalar.addi c0_i32 c4_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c512_i32 : BitVec 32 := 512#32
  let v9 : BitVec 32 := Scalar.muli arg9 c512_i32
  v9
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c512_i32 : BitVec 32 := 512#32
  let v9 : BitVec 32 := Scalar.muli arg9 c512_i32
  let v10 : BitVec 32 := v9
  let v11 : Index := Scalar.indexCast v10
  let c0_8 : Index := 0#32
  ![v11.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S16x4096x768_S65536x768 : S16x4096x768.ShapeCasts S65536x768
  bitsLt_bf16_f32 : FTy.bits .bf16 < FTy.bits .f32
  shapeCasts_S65536x768_S16x4096x768 : S65536x768.ShapeCasts S16x4096x768
  inb_S768_S768_0 : ∀ a, (![0] : Fin 1 → Nat) a + S768.size a ≤ S768.size a
  h_S768 : 0 < S768.numel
  inb_S768x64_S768x64_0_0 : ∀ a, (![0, 0] : Fin 2 → Nat) a + S768x64.size a ≤ S768x64.size a
  h_S768x64 : 0 < S768x64.numel
  shapeCasts_S768x64_S768x64 : S768x64.ShapeCasts S768x64
  inb_S64_S64_0 : ∀ a, (![0] : Fin 1 → Nat) a + S64.size a ≤ S64.size a
  h_S64 : 0 < S64.numel
  inb_S64x768_S64x768_0_0 : ∀ a, (![0, 0] : Fin 2 → Nat) a + S64x768.size a ≤ S64x768.size a
  h_S64x768 : 0 < S64x768.numel
  shapeCasts_S64x768_S64x768 : S64x768.ShapeCasts S64x768
  h_S512x768 : 0 < S512x768.numel
  shapeCasts_S512x768_S512x768 : S512x768.ShapeCasts S512x768
  reduces_S512x768_S512 : S512x768.Reduces [1] S512
  shapeCasts_S512_S512x1 : S512.ShapeCasts S512x1
  broadcasts_S512x1_S512x768 : S512x1.Broadcasts S512x768
  shapeCasts_S768_S1x768 : S768.ShapeCasts S1x768
  broadcasts_S1x768_S512x768 : S1x768.Broadcasts S512x768
  shapeCasts_S64_S1x64 : S64.ShapeCasts S1x64
  broadcasts_S1x64_S512x64 : S1x64.Broadcasts S512x64
  dot_S512x768_S768x64_S512x64_1_0_0_1_n_n_wf : DotDims.WF S512x768 S768x64 S512x64 [1] [0] [0] [1] [] []
  dot_S512x64_S64x768_S512x768_1_0_0_1_n_n_wf : DotDims.WF S512x64 S64x768 S512x768 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x768.size a ≤ S2048x768.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S65536x768.size a
  hwx0_0 : ∀ i : grid0.Coords, EltTy.bits .f32 = 32 ∨ (Rect.block (s := S65536x768) S2048x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768.size a ≤ S768.size a
  hwx0_1 : ∀ i : grid0.Coords, EltTy.bits .f32 = 32 ∨ (Rect.block (s := S768) S768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x64.size a ≤ S768x64.size a
  hwx0_3 : ∀ i : grid0.Coords, EltTy.bits .bf16 = 32 ∨ (Rect.block (s := S768x64) S768x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x768.size a ≤ S64x768.size a
  hwx0_5 : ∀ i : grid0.Coords, EltTy.bits .bf16 = 32 ∨ (Rect.block (s := S64x768) S64x768.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S768.size a ≤ S768.size a
  hwx0_6 : ∀ i : grid0.Coords, EltTy.bits .f32 = 32 ∨ (Rect.block (s := S768) S768.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x768.size a ≤ S65536x768.size a
  hwx0_7 : ∀ i : grid0.Coords, EltTy.bits .f32 = 32 ∨ (Rect.block (s := S65536x768) S2048x768.size (cc0_transform_7 i) (hinb0_7 i)).WholeWords (EltTy.packing .f32)

variable [Facts₀]

def dot_S512x768_S768x64_S512x64_1_0_0_1_n_n : DotDims S512x768 S768x64 S512x64 where
  lhsContracting := [1]
  rhsContracting := [0]
  lhsNonContracting := [0]
  rhsNonContracting := [1]
  lhsBatch := []
  rhsBatch := []
  wf := dot_S512x768_S768x64_S512x64_1_0_0_1_n_n_wf
def dot_S512x64_S64x768_S512x768_1_0_0_1_n_n : DotDims S512x64 S64x768 S512x768 where
  lhsContracting := [1]
  rhsContracting := [0]
  lhsNonContracting := [0]
  rhsNonContracting := [1]
  lhsBatch := []
  rhsBatch := []
  wf := dot_S512x64_S64x768_S512x768_1_0_0_1_n_n_wf

abbrev win0_0 : Pipeline.Window sig grid0 :=
  Pipeline.Window.ofSpec (Memref.whole main_call0_v0) S2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S768x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v2) S64x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v3) S2048x768.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x4096x768 : Shape := ⟨3, ![16, 4096, 768]⟩
abbrev S768 : Shape := ⟨1, ![768]⟩
abbrev S768x64 : Shape := ⟨2, ![768, 64]⟩
abbrev S64 : Shape := ⟨1, ![64]⟩
abbrev S64x768 : Shape := ⟨2, ![64, 768]⟩
abbrev S_ : Shape := ⟨0, ![]⟩
abbrev S16x4096 : Shape := ⟨2, ![16, 4096]⟩
abbrev S16x4096x1 : Shape := ⟨3, ![16, 4096, 1]⟩
abbrev S1x1x768 : Shape := ⟨3, ![1, 1, 768]⟩
abbrev S16x4096x64 : Shape := ⟨3, ![16, 4096, 64]⟩
abbrev S1x1x64 : Shape := ⟨3, ![1, 1, 64]⟩

abbrev nBuf : Space → Nat
  | .hbm => 50
  | .vmem => 0
  | .smem => 0
  | _ => 0

abbrev bufTy : (tb : Table) → Fin (tcTables nBuf tb) → BufTy
  | .hbm, ⟨0, _⟩ => ⟨S16x4096x768, .f32⟩
  | .hbm, ⟨1, _⟩ => ⟨S768, .f32⟩
  | .hbm, ⟨2, _⟩ => ⟨S768, .f32⟩
  | .hbm, ⟨3, _⟩ => ⟨S768x64, .f32⟩
  | .hbm, ⟨4, _⟩ => ⟨S64, .f32⟩
  | .hbm, ⟨5, _⟩ => ⟨S64x768, .f32⟩
  | .hbm, ⟨6, _⟩ => ⟨S768, .f32⟩
  | .hbm, ⟨7, _⟩ => ⟨S_, .f32⟩
  | .hbm, ⟨8, _⟩ => ⟨S16x4096, .f32⟩
  | .hbm, ⟨9, _⟩ => ⟨S16x4096x1, .f32⟩
  | .hbm, ⟨10, _⟩ => ⟨S_, .f32⟩
  | .hbm, ⟨11, _⟩ => ⟨S16x4096x1, .f32⟩
  | .hbm, ⟨12, _⟩ => ⟨S16x4096x1, .f32⟩
  | .hbm, ⟨13, _⟩ => ⟨S16x4096x768, .f32⟩
  | .hbm, ⟨14, _⟩ => ⟨S16x4096x768, .f32⟩
  | .hbm, ⟨15, _⟩ => ⟨S16x4096x768, .f32⟩
  | .hbm, ⟨16, _⟩ => ⟨S_, .f32⟩
  | .hbm, ⟨17, _⟩ => ⟨S16x4096, .f32⟩
  | .hbm, ⟨18, _⟩ => ⟨S16x4096x1, .f32⟩
  | .hbm, ⟨19, _⟩ => ⟨S_, .f32⟩
  | .hbm, ⟨20, _⟩ => ⟨S16x4096x1, .f32⟩
  | .hbm, ⟨21, _⟩ => ⟨S16x4096x1, .f32⟩
  | .hbm, ⟨22, _⟩ => ⟨S16x4096x768, .f32⟩
  | .hbm, ⟨23, _⟩ => ⟨S16x4096x768, .f32⟩
  | .hbm, ⟨24, _⟩ => ⟨S_, .f32⟩
  | .hbm, ⟨25, _⟩ => ⟨S16x4096x1, .f32⟩
  | .hbm, ⟨26, _⟩ => ⟨S16x4096x1, .f32⟩
  | .hbm, ⟨27, _⟩ => ⟨S16x4096x1, .f32⟩
  | .hbm, ⟨28, _⟩ => ⟨S16x4096x768, .f32⟩
  | .hbm, ⟨29, _⟩ => ⟨S16x4096x768, .f32⟩
  | .hbm, ⟨30, _⟩ => ⟨S1x1x768, .f32⟩
  | .hbm, ⟨31, _⟩ => ⟨S16x4096x768, .f32⟩
  | .hbm, ⟨32, _⟩ => ⟨S16x4096x768, .f32⟩
  | .hbm, ⟨33, _⟩ => ⟨S1x1x768, .f32⟩
  | .hbm, ⟨34, _⟩ => ⟨S16x4096x768, .f32⟩
  | .hbm, ⟨35, _⟩ => ⟨S16x4096x768, .f32⟩
  | .hbm, ⟨36, _⟩ => ⟨S16x4096x64, .f32⟩
  | .hbm, ⟨37, _⟩ => ⟨S1x1x64, .f32⟩
  | .hbm, ⟨38, _⟩ => ⟨S16x4096x64, .f32⟩
  | .hbm, ⟨39, _⟩ => ⟨S16x4096x64, .f32⟩
  | .hbm, ⟨40, _⟩ => ⟨S_, .f32⟩
  | .hbm, ⟨41, _⟩ => ⟨S16x4096x64, .f32⟩
  | .hbm, ⟨42, _⟩ => ⟨S16x4096x64, .f32⟩
  | .hbm, ⟨43, _⟩ => ⟨S16x4096x768, .f32⟩
  | .hbm, ⟨44, _⟩ => ⟨S1x1x768, .f32⟩
  | .hbm, ⟨45, _⟩ => ⟨S16x4096x768, .f32⟩
  | .hbm, ⟨46, _⟩ => ⟨S16x4096x768, .f32⟩
  | .hbm, ⟨47, _⟩ => ⟨S_, .f32⟩
  | .hbm, ⟨48, _⟩ => ⟨S16x4096x768, .f32⟩
  | .hbm, ⟨49, _⟩ => ⟨S16x4096x768, .f32⟩
  | _, _ => ⟨S16x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call0_cst : Ref sig .tc := ⟨.hbm, 40, rfl⟩
abbrev main_call0_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]

class Facts₀ : Prop where
  reducesTo_S16x4096x768_S16x4096_d2 : S16x4096x768.ReducesTo [2] S16x4096
  h_S_ : 0 < S_.numel
  bcast_S16x4096_S16x4096x1_0_1 : S16x4096.BroadcastsInDim S16x4096x1 (![0, 1] : Fin 2 → Fin S16x4096x1.rank)
  bcast_S_S16x4096x1 : S_.BroadcastsInDim S16x4096x1 (![] : Fin 0 → Fin S16x4096x1.rank)
  bcast_S16x4096x1_S16x4096x768_0_1_2 : S16x4096x1.BroadcastsInDim S16x4096x768 (![0, 1, 2] : Fin 3 → Fin S16x4096x768.rank)
  bcast_S768_S1x1x768_2 : S768.BroadcastsInDim S1x1x768 (![2] : Fin 1 → Fin S1x1x768.rank)
  bcast_S1x1x768_S16x4096x768_0_1_2 : S1x1x768.BroadcastsInDim S16x4096x768 (![0, 1, 2] : Fin 3 → Fin S16x4096x768.rank)
  bcast_S64_S1x1x64_2 : S64.BroadcastsInDim S1x1x64 (![2] : Fin 1 → Fin S1x1x64.rank)
  bcast_S1x1x64_S16x4096x64_0_1_2 : S1x1x64.BroadcastsInDim S16x4096x64 (![0, 1, 2] : Fin 3 → Fin S16x4096x64.rank)
  bcast_S_S16x4096x64 : S_.BroadcastsInDim S16x4096x64 (![] : Fin 0 → Fin S16x4096x64.rank)
  bcast_S_S16x4096x768 : S_.BroadcastsInDim S16x4096x768 (![] : Fin 0 → Fin S16x4096x768.rank)
  dot_S16x4096x768_S768x64_S16x4096x64_2_0_01_1_n_n_wf : DotDims.WF S16x4096x768 S768x64 S16x4096x64 [2] [0] [0, 1] [1] [] []
  dot_S16x4096x64_S64x768_S16x4096x768_2_0_01_1_n_n_wf : DotDims.WF S16x4096x64 S64x768 S16x4096x768 [2] [0] [0, 1] [1] [] []

variable [Facts₀]

def dot_S16x4096x768_S768x64_S16x4096x64_2_0_01_1_n_n : DotDims S16x4096x768 S768x64 S16x4096x64 where
  lhsContracting := [2]
  rhsContracting := [0]
  lhsNonContracting := [0, 1]
  rhsNonContracting := [1]
  lhsBatch := []
  rhsBatch := []
  wf := dot_S16x4096x768_S768x64_S16x4096x64_2_0_01_1_n_n_wf
def dot_S16x4096x64_S64x768_S16x4096x768_2_0_01_1_n_n : DotDims S16x4096x64 S64x768 S16x4096x768 where
  lhsContracting := [2]
  rhsContracting := [0]
  lhsNonContracting := [0, 1]
  rhsNonContracting := [1]
  lhsBatch := []
  rhsBatch := []
  wf := dot_S16x4096x64_S64x768_S16x4096x768_2_0_01_1_n_n_wf

class Facts : Prop extends Facts₀ where

variable [Facts]
-- ==== Proof.LibRowVariance.lean ====
/-
  The variance of a row of `n` real numbers computed two ways agrees on the extended reals.

  A LayerNorm-style kernel often takes the variance of a row `r` as the mean of the squares minus the square of the
  mean, `(Σ r²)/n − μ²` with `μ = (Σ r)/n`, where the textbook form is the mean of the squared deviations,
  `(Σ (r − μ)²)/n`. Over the reals, with `c = 1/n` and `μ = c Σ r`:
  `c Σ (r − μ)² = c Σ r² − 2 μ (c Σ r) + (n c) μ² = c Σ r² − μ²` (`real_var`). On the extended reals the quotient by a
  word that denotes the real `n` is the product with `1/n`, a finite sum of reals is the real sum (`coe_sum`), and
  the identity transfers to every row whose entries are real numbers (`var_eq`). For rows with infinite entries it
  fails (`∞ − ∞`), so a claim that needs it needs a finiteness precondition on the row.
-/
import Idealize.ShloMosaic.PureOps.Ideal

noncomputable section

namespace Cert.RowVariance

open Idealize.ShloMosaic

/-- A finite sum of real numbers, each read as an extended real, is the real sum read as an extended real. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The variance identity over the reals, written with the factor `c = 1/n`. -/
theorem real_var {n : ℕ} (hn : n ≠ 0) (x : Fin n → ℝ) :
    (∑ k, (x k - (∑ k, x k) * (1 / (n : ℝ))) * (x k - (∑ k, x k) * (1 / (n : ℝ)))) * (1 / (n : ℝ))
      = (∑ k, x k * x k) * (1 / (n : ℝ)) - ((∑ k, x k) * (1 / (n : ℝ))) * ((∑ k, x k) * (1 / (n : ℝ))) := by
  have hn' : (n : ℝ) ≠ 0 := Nat.cast_ne_zero.mpr hn
  generalize hS : ∑ k, x k = S
  have h : ∀ k, (x k - S * (1 / (n : ℝ))) * (x k - S * (1 / (n : ℝ)))
      = x k * x k - (2 * (S * (1 / (n : ℝ)))) * x k + (S * (1 / (n : ℝ))) * (S * (1 / (n : ℝ))) := fun k => by ring
  rw [Finset.sum_congr rfl fun k _ => h k, Finset.sum_add_distrib, Finset.sum_sub_distrib, ← Finset.mul_sum, hS,
    Finset.sum_const, Finset.card_univ, Fintype.card_fin, nsmul_eq_mul]
  field_simp
  ring

/-- On the extended reals, for a divisor `w` that denotes the real `n` and a row of real numbers: the mean of the
    squares minus the square of the mean is the mean of the squared deviations from the mean (quotients by
    `Ideal.div`, the float quotient on the extended reals). -/
theorem var_eq {n : ℕ} (hn : n ≠ 0) (w : EReal) (hw : w = ((n : ℝ) : EReal)) (r : Fin n → EReal)
    (hr : ∀ k, ∃ x : ℝ, r k = (x : EReal)) :
    Ideal.div (∑ k, r k * r k) w - Ideal.div (∑ k, r k) w * Ideal.div (∑ k, r k) w
      = Ideal.div (∑ k, (r k - Ideal.div (∑ k, r k) w) * (r k - Ideal.div (∑ k, r k) w)) w := by
  have hn' : (n : ℝ) ≠ 0 := Nat.cast_ne_zero.mpr hn
  choose x hx using hr
  obtain rfl : r = fun k => ((x k : ℝ) : EReal) := funext hx
  subst hw
  have hmean : Ideal.div (∑ k, ((x k : ℝ) : EReal)) ((n : ℝ) : EReal) = (((∑ k, x k) * (1 / (n : ℝ)) : ℝ) : EReal) := by
    rw [Ideal.div_coe hn', coe_sum, ← EReal.coe_mul]
  rw [hmean, Ideal.div_coe hn', Ideal.div_coe hn']
  simp only [← EReal.coe_mul, ← EReal.coe_sub, coe_sum]
  exact congrArg _ (real_var hn x).symm

end Cert.RowVariance

end
-- ==== Proof.AdapterSpec.lean ====
/-
  The adapter, one row at a time, on the extended reals.

  A row `r` of 768 numbers is normalised — its mean `μ = (Σ r) / 768` subtracted, the result scaled by
  `1/√(v + ε)` for a variance `v`, then by `γ` and shifted by `β` —, projected down to 64 numbers
  (`h · W_down + b_down`, negative entries replaced by zero), projected back up to 768 numbers
  (`z · W_up + b_up`) and scaled by the word `0.1`. Everything but the variance is one formula
  (`adapterRow`); the variance is computed in two ways, as the mean of squares minus the square of the mean
  (`varK`) and as the mean of the squared deviations (`varR`). For a row of REAL numbers the two are the same
  number (`varK_eq_varR`, from the identity `c Σ (r − μ)² = c Σ r² − μ²` for `c = 1/768`, `μ = c Σ r`).
  On rows with infinite entries the identity fails, which is why the claim needs its finiteness precondition.
-/
import Idealize.ShloMosaic.PureOps.Ideal
import Idealize.ShloMosaic.Lib.ValueIdx
import proofs.«176521_j59270548685191_2_alg».proof.Proof.LibRowVariance

noncomputable section

namespace Cert.Adapter

open Idealize.ShloMosaic

/-- The divisor `768.0`, the variance's `ε` (the f32 nearest `1e-5`) and the output scale (the f32 nearest `0.1`),
    each the extended real its word denotes. Only `768.0` is ever evaluated. -/
abbrev w768 : EReal := Ideal.ofBits .f32 0x44400000#32
abbrev wEps : EReal := Ideal.ofBits .f32 0x3727C5AC#32
abbrev wScale : EReal := Ideal.ofBits .f32 0x3DCCCCCD#32

/-- The word `768.0` denotes the real number 768. -/
theorem w768_eq : w768 = ((768 : ℝ) : EReal) := by
  simp [w768, Ideal.ofBits, Ideal.ieee, -EReal.coe_mul]; norm_num

/-- The mean of a row. -/
def mean (r : Fin 768 → EReal) : EReal := Ideal.div (∑ k, r k) w768

/-- The variance as the mean of the squares minus the square of the mean. -/
def varK (r : Fin 768 → EReal) : EReal := Ideal.div (∑ k, r k * r k) w768 - mean r * mean r

/-- The variance as the mean of the squared deviations from the mean. -/
def varR (r : Fin 768 → EReal) : EReal := Ideal.div (∑ k, (r k - mean r) * (r k - mean r)) w768

/-- The normalised row for a variance `v`, scaled by `γ` and shifted by `β`. -/
def normed (r : Fin 768 → EReal) (v : EReal) (γ β : Fin 768 → EReal) (k : Fin 768) : EReal :=
  (r k - mean r) * Ideal.rsqrt (v + wEps) * γ k + β k

/-- The down-projection with its bias, negative entries replaced by zero. -/
def hidden (h : Fin 768 → EReal) (Wd : Fin 768 → Fin 64 → EReal) (bd : Fin 64 → EReal) (j : Fin 64) : EReal :=
  max ((∑ k, h k * Wd k j) + bd j) 0

/-- The up-projection with its bias, scaled. -/
def outRow (z : Fin 64 → EReal) (Wu : Fin 64 → Fin 768 → EReal) (bu : Fin 768 → EReal) (d : Fin 768) : EReal :=
  ((∑ j, z j * Wu j d) + bu d) * wScale

/-- The whole adapter on one row, for a variance `v`. -/
def adapterRow (v : EReal) (r γ β : Fin 768 → EReal) (Wd : Fin 768 → Fin 64 → EReal) (bd : Fin 64 → EReal)
    (Wu : Fin 64 → Fin 768 → EReal) (bu : Fin 768 → EReal) (d : Fin 768) : EReal :=
  outRow (hidden (normed r v γ β) Wd bd) Wu bu d

/-- On a row of real numbers the two variances agree: the general identity for a row of `n` reals, at `n = 768`. -/
theorem varK_eq_varR (r : Fin 768 → EReal) (hr : ∀ k, ∃ x : ℝ, r k = (x : EReal)) : varK r = varR r := by
  unfold varK varR mean
  exact Cert.RowVariance.var_eq (n := 768) (by norm_num) w768 (by rw [w768_eq]; norm_num) r hr

end Cert.Adapter

end
-- ==== Proof.AdapterArray.lean ====
/-
  The adapter on the whole `[16, 4096, 768]` array: entry `(b, t, d)` is the adapter of row `(b, t)` at `d`, for a
  choice `var` of the variance formula. When every entry of `x` is a real number the two variance formulas give one
  array (`resultFn_var`).
-/
import proofs.«176521_j59270548685191_2_alg».proof.Proof.AdapterSpec

noncomputable section

namespace Cert.Adapter

open Idealize.ShloMosaic Idealize.ShloMosaic.ValueIdx

/-- The adapter applied to every row `(b, t)` of `x`. -/
def resultFn (var : (Fin 768 → EReal) → EReal) (x0 : (⟨3, ![16, 4096, 768]⟩ : Shape).Idx → EReal)
    (x1 x2 : (⟨1, ![768]⟩ : Shape).Idx → EReal) (x3 : (⟨2, ![768, 64]⟩ : Shape).Idx → EReal)
    (x4 : (⟨1, ![64]⟩ : Shape).Idx → EReal) (x5 : (⟨2, ![64, 768]⟩ : Shape).Idx → EReal)
    (x6 : (⟨1, ![768]⟩ : Shape).Idx → EReal) : (⟨3, ![16, 4096, 768]⟩ : Shape).Idx → EReal :=
  fun i => adapterRow (var (fun k => x0 (ix3 (i 0) (i 1) k))) (fun k => x0 (ix3 (i 0) (i 1) k))
    (fun k => x1 (ix1 k)) (fun k => x2 (ix1 k)) (fun k j => x3 (ix2 k j)) (fun j => x4 (ix1 j))
    (fun j d => x5 (ix2 j d)) (fun d => x6 (ix1 d)) (i 2)

/-- On an input of real numbers the two variance formulas give the same array. -/
theorem resultFn_var (x0 : (⟨3, ![16, 4096, 768]⟩ : Shape).Idx → EReal)
    (x1 x2 : (⟨1, ![768]⟩ : Shape).Idx → EReal) (x3 : (⟨2, ![768, 64]⟩ : Shape).Idx → EReal)
    (x4 : (⟨1, ![64]⟩ : Shape).Idx → EReal) (x5 : (⟨2, ![64, 768]⟩ : Shape).Idx → EReal)
    (x6 : (⟨1, ![768]⟩ : Shape).Idx → EReal) (hx : ∀ i, ∃ r : ℝ, x0 i = (r : EReal)) :
    resultFn varK x0 x1 x2 x3 x4 x5 x6 = resultFn varR x0 x1 x2 x3 x4 x5 x6 := by
  funext i
  unfold resultFn
  rw [varK_eq_varR _ fun k => hx _]

end Cert.Adapter

end
-- ==== Proof.LibColumnLayout.lean ====
/-
  Column vectors read at an index given by coordinates.

  A sum along the rows of an `[a, b]` array is an `[a]` vector; kept as a matrix it is the column `[a, 1]`, and a
  column is spread along the second axis to `[a, b]`. Each of these re-lays values without
  computing anything: the result at an index is the operand at one index, named here by coordinates.
    • `[a] → [a, 1]` (a shape cast): entry `(i, u)` is entry `i`, whatever the unit coordinate `u`;
    • `[a, 1] → [a, b]` (a broadcast): entry `(i, j)` is entry `(i, 0)`;
    • a sum along the second axis of an `[a, b]` array of extended reals: entry `i` is `∑ⱼ` of entry `(i, j)`.
  The companions for rows (`[a] → [1, a]`, `[1, b] → [a, b]`) and the matrix transpose are the library's.
-/
import Idealize.ShloMosaic.Lib.ValueLayout
import Idealize.ShloMosaic.PureOps.Ideal.Laws

namespace Cert.ColumnLayout

open Idealize.ShloMosaic Idealize.ShloMosaic.ValueIdx

variable {α : Type}

/-- An `[a]` array cast to the column `[a, 1]` reads, at `(i, u)`, the operand at `i`: both indices have the same
    row-major position, `i·1 + u = i` since `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A sum along the second axis of an `[a, b]` array of extended reals, from the zero accumulator, reads at `i` the sum
    over `j` of the entries `(i, j)`. The last hypothesis says that the accumulator's word, zero, is the neutral
    word of addition. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (i : Fin a) :
    multiReduction .add [1] ⟨1, ![a]⟩ src 0x00000000#32 h hφ hacc (ix1 i) = ∑ j : Fin b, src (ix2 i j) := by
  refine (Ideal.multiReduction_add_single src 0x00000000#32 h hφ hacc (ix1 i)).trans ?_
  show ∑ j : Fin b, src (h.lift (ix1 i) j) = ∑ j : Fin b, src (ix2 i j)
  refine Finset.sum_congr rfl fun j _ => congrArg src (funext fun c => Fin.ext ?_)
  match c with
  | ⟨0, _⟩ => rfl
  | ⟨1, _⟩ => rfl

end Cert.ColumnLayout
-- ==== Proof.LibLeadingAxisLayout.lean ====
/-
  Layout operations that add a LEADING unit axis and spread along it, read at coordinates, at every extent:

  • a stack of one matrix spread along the leading axis, `[1, b, n] → [a, b, n]`: entry `(r, s, k)` is entry
    `(0, s, k)` of the operand (`broadcastTo_1bn_abn_apply`);
  • a vector laid as one row and spread over `m` rows, `[n] → [1, n] → [m, n]`: entry `(j, v)` is the vector's
    entry `v` (`rows_apply`) — a bias added to every row of a matrix.

  Each is the library's `broadcastTo_apply` (a unit axis reads coordinate `0`) or its rank-2 forms composed, with
  both indices written by coordinates.
-/
import Idealize.ShloMosaic.Lib.Pipeline.Value
import Idealize.ShloMosaic.Lib.ValueIdx
import Idealize.ShloMosaic.Lib.ValueLayout

namespace Cert.LeadingAxisLayout

open Idealize.ShloMosaic Idealize.ShloMosaic.ValueIdx

variable {α : Type}

/-- A `[1, b, n]` array broadcast to `[a, b, n]` reads, at `(r, s, k)`, the operand at `(0, s, k)`. -/
theorem broadcastTo_1bn_abn_apply {a b n : ℕ} (y : (⟨3, ![1, b, n]⟩ : Shape).Idx → α)
    (h : (⟨3, ![1, b, n]⟩ : Shape).Broadcasts ⟨3, ![a, b, n]⟩) (r : Fin a) (s : Fin b) (k : Fin n) :
    broadcastTo ⟨3, ![a, b, n]⟩ y h (ix3 r s k) = y (ix3 (0 : Fin 1) s k) := by
  refine broadcastTo_apply y h (ix3 r s k) (ix3 (0 : Fin 1) s k) fun ax => ?_
  match ax with
  | ⟨0, _⟩ => rfl
  | ⟨1, _⟩ =>
    show s.val = if b = 1 then 0 else s.val
    split
    · have := s.isLt; omega
    · rfl
  | ⟨2, _⟩ =>
    show k.val = if n = 1 then 0 else k.val
    split
    · have := k.isLt; omega
    · rfl

/-- A vector laid as one row and spread over `m` rows reads, at `(j, v)`, the vector at `v`. -/
theorem rows_apply {m n : ℕ} (q : (⟨1, ![n]⟩ : Shape).Idx → α) (hc : (⟨1, ![n]⟩ : Shape).ShapeCasts ⟨2, ![1, n]⟩)
    (hb : (⟨2, ![1, n]⟩ : Shape).Broadcasts ⟨2, ![m, n]⟩) (j : Fin m) (v : Fin n) :
    broadcastTo ⟨2, ![m, n]⟩ (shapeCast ⟨2, ![1, n]⟩ q hc) hb (ix2 j v) = q (ix1 v) :=
  (broadcastTo_1b_ab_apply _ hb j v).trans (shapeCast_a_1a_apply q hc 0 v)

end Cert.LeadingAxisLayout
-- ==== Proof.LibPlainMatmul.lean ====
/-
  A plain matrix product read at coordinates.

  For the plain contraction `[M, K] × [K, N] → [M, N]` (the left operand contracted on its second axis, the right on
  its first, no batch axis), accumulated into the zero matrix, the entry `(r, c)` of the result is
  `Σ_k lhs (r, k) · rhs (k, c)` on the extended reals, at any extents: the left operand is read on row `r`, the
  right on column `c`, and the one contraction coordinate `k` runs over `Fin K`.
-/
import Idealize.ShloMosaic.Lib.ValueIdx
import Idealize.ShloMosaic.PureOps.Ideal.Laws

namespace Cert.PlainMatmul

open Idealize.ShloMosaic Idealize.ShloMosaic.ValueIdx

variable {M K N : ℕ}

/-- The left operand's row coordinate is the result's row coordinate. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the result's column coordinate. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The plain product into the zero matrix, at `(r, c)`: the sum over `k` of `lhs (r, k) · rhs (k, c)`. -/
theorem plain_apply {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end Cert.PlainMatmul
-- ==== Proof.KernelRow.lean ====
/-
  The kernel body's arithmetic, read one entry at a time on the extended reals.

  The body computes, from a chunk `x` of 512 rows and the six parameter arrays, a chunk of 512 output rows. Its
  text is cut here into five stages — the column of row means, the column of row variances (mean of squares
  minus squared mean), the normalised chunk, the hidden chunk (down-projection, bias, negatives to zero) and
  the output chunk (up-projection, bias, scale) — whose composition is the body's payload word for word
  (`pay_eq`). Each stage is then read at coordinates: a row statistic at `(p, 0)` is a function of row `p`
  alone, a matrix product at `(p, j)` is a sum over the contracted coordinate, a parameter vector spread over the
  rows reads its own entry. Together: entry `(p, d)` of the output chunk is the adapter of row `p`, with the
  variance in its mean-of-squares form, at `d` (`pay_apply`). A change of float format is the identity here.
-/
import proofs.«176521_j59270548685191_2_alg».proof.Proof.Gen.KernelIdeal.Skeleton
import proofs.«176521_j59270548685191_2_alg».proof.Proof.AdapterSpec
import proofs.«176521_j59270548685191_2_alg».proof.Proof.LibColumnLayout
import proofs.«176521_j59270548685191_2_alg».proof.Proof.LibLeadingAxisLayout
import proofs.«176521_j59270548685191_2_alg».proof.Proof.LibPlainMatmul

noncomputable section

namespace Cert.KernelIdeal.Row

open Idealize.ShloMosaic Idealize.ShloMosaic.ValueIdx
open Cert.KernelIdeal Cert.KernelIdeal.Facts₀

/-- The column of row means of a chunk. -/
def muCol (x : FVec Ideal S512x768 .f32) : FVec Ideal S512x1 .f32 :=
  divf (shapeCast S512x1 (multiReduction .add [1] S512 x 0x00000000#32 reduces_S512x768_S512 (.inl rfl) rfl) shapeCasts_S512_S512x1)
    (broadcast S512x1 (Scalar.ofBits (F := Ideal) .f32 0x44400000#32))

/-- The column of row variances: the mean of the squares minus the square of the mean. -/
def varCol (x : FVec Ideal S512x768 .f32) : FVec Ideal S512x1 .f32 :=
  subf (divf (shapeCast S512x1 (multiReduction .add [1] S512 (mulf x x) 0x00000000#32 reduces_S512x768_S512 (.inl rfl) rfl) shapeCasts_S512_S512x1)
      (broadcast S512x1 (Scalar.ofBits (F := Ideal) .f32 0x44400000#32)))
    (mulf (muCol x) (muCol x))

/-- The normalised chunk, scaled by `γ` and shifted by `β`. -/
def hMat (g b : Vec Ideal S768 .f32) (x : FVec Ideal S512x768 .f32) : FVec Ideal S512x768 .f32 :=
  addf (mulf (mulf (subf x (broadcastTo S512x768 (muCol x) broadcasts_S512x1_S512x768))
        (broadcastTo S512x768 (rsqrt (addf (varCol x) (broadcast S512x1 (Scalar.ofBits (F := Ideal) .f32 0x3727C5AC#32)))) broadcasts_S512x1_S512x768))
      (broadcastTo S512x768 (shapeCast S1x768 g shapeCasts_S768_S1x768) broadcasts_S1x768_S512x768))
    (broadcastTo S512x768 (shapeCast S1x768 b shapeCasts_S768_S1x768) broadcasts_S1x768_S512x768)

/-- The hidden chunk: the down-projection plus its bias, negative entries replaced by zero. -/
def zMat (wd : Vec Ideal S768x64 .bf16) (bd : Vec Ideal S64 .f32) (h : FVec Ideal S512x768 .f32) : FVec Ideal S512x64 .f32 :=
  maximumf (addf (matmul dot_S512x768_S768x64_S512x64_1_0_0_1_n_n none (truncf .bf16 h bitsLt_bf16_f32)
        (shapeCast S768x64 wd shapeCasts_S768x64_S768x64 : FVec Ideal S768x64 .bf16) (constant S512x64 .f32 0x00000000#32))
      (broadcastTo S512x64 (shapeCast S1x64 bd shapeCasts_S64_S1x64) broadcasts_S1x64_S512x64))
    (broadcast S512x64 (Scalar.ofBits (F := Ideal) .f32 0x00000000#32))

/-- The output chunk: the up-projection plus its bias, scaled. -/
def oMat (wu : Vec Ideal S64x768 .bf16) (bu : Vec Ideal S768 .f32) (z : FVec Ideal S512x64 .f32) : FVec Ideal S512x768 .f32 :=
  mulf (addf (matmul dot_S512x64_S64x768_S512x768_1_0_0_1_n_n none (truncf .bf16 z bitsLt_bf16_f32)
        (shapeCast S64x768 wu shapeCasts_S64x768_S64x768 : FVec Ideal S64x768 .bf16) (constant S512x768 .f32 0x00000000#32))
      (broadcastTo S512x768 (shapeCast S1x768 bu shapeCasts_S768_S1x768) broadcasts_S1x768_S512x768))
    (broadcast S512x768 (Scalar.ofBits (F := Ideal) .f32 0x3DCCCCCD#32))

/-- The body's payload is the five stages composed. -/
theorem pay_eq (v0 v1 : Vec Ideal S768 .f32) (v2 : Vec Ideal S768x64 .bf16) (v4 : Vec Ideal S64 .f32)
    (v5 : Vec Ideal S64x768 .bf16) (v7 : Vec Ideal S768 .f32) (v12 : Vec Ideal S512x768 .f32) :
    Gen.k0_pay1 (F := Ideal) v0 v1 v2 v4 v5 v7 v12
      = oMat v5 v7 (zMat v2 v4 (hMat v0 v1 (shapeCast S512x768 v12 shapeCasts_S512x768_S512x768))) := rfl

/-- The row `p` of a chunk. -/
abbrev rowOf (x : FVec Ideal S512x768 .f32) (p : Fin 512) : Fin 768 → EReal := fun k => x (ix2 p k)

/-- A sum along a row divided by the word 768.0, kept as a column: at `(p, 0)` the sum of row `p` over 768. -/
theorem rowMean_apply (y : FVec Ideal S512x768 .f32) (p : Fin 512) (u : Fin 1) :
    divf (shapeCast S512x1 (multiReduction .add [1] S512 y 0x00000000#32 reduces_S512x768_S512 (.inl rfl) rfl) shapeCasts_S512_S512x1)
        (broadcast S512x1 (Scalar.ofBits (F := Ideal) .f32 0x44400000#32)) (ix2 p u)
      = Ideal.div (∑ k, y (ix2 p k)) Adapter.w768 := by
  show Ideal.div (shapeCast S512x1 _ shapeCasts_S512_S512x1 (ix2 p u)) _ = _
  rw [Cert.ColumnLayout.shapeCast_a_a1_apply]
  exact congrArg (fun s => Ideal.div s Adapter.w768) (Cert.ColumnLayout.rowSum_apply y _ _ _ p)

/-- The mean column at row `p` is the mean of row `p`. -/
theorem muCol_apply (x : FVec Ideal S512x768 .f32) (p : Fin 512) (u : Fin 1) :
    muCol x (ix2 p u) = Adapter.mean (rowOf x p) :=
  rowMean_apply x p u

/-- The variance column at row `p` is the variance (mean of squares minus squared mean) of row `p`. -/
theorem varCol_apply (x : FVec Ideal S512x768 .f32) (p : Fin 512) (u : Fin 1) :
    varCol x (ix2 p u) = Adapter.varK (rowOf x p) := by
  have e1 := rowMean_apply (mulf x x) p u
  have e2 := muCol_apply x p u
  show (divf (shapeCast S512x1 (multiReduction .add [1] S512 (mulf x x) 0x00000000#32 reduces_S512x768_S512 (.inl rfl) rfl) shapeCasts_S512_S512x1)
        (broadcast S512x1 (Scalar.ofBits (F := Ideal) .f32 0x44400000#32)) (ix2 p u) : EReal)
      - muCol x (ix2 p u) * muCol x (ix2 p u) = _
  rw [e2, e1]
  rfl

/-- The normalised chunk at `(p, k)`. -/
theorem hMat_apply (g b : Vec Ideal S768 .f32) (x : FVec Ideal S512x768 .f32) (p : Fin 512) (k : Fin 768) :
    hMat g b x (ix2 p k)
      = Adapter.normed (rowOf x p) (Adapter.varK (rowOf x p)) (fun k => g (ix1 k)) (fun k => b (ix1 k)) k := by
  show (x (ix2 p k) - broadcastTo S512x768 (muCol x) broadcasts_S512x1_S512x768 (ix2 p k))
        * broadcastTo S512x768 (rsqrt (addf (varCol x) (broadcast S512x1 (Scalar.ofBits (F := Ideal) .f32 0x3727C5AC#32)))) broadcasts_S512x1_S512x768 (ix2 p k)
        * broadcastTo S512x768 (shapeCast S1x768 g shapeCasts_S768_S1x768) broadcasts_S1x768_S512x768 (ix2 p k)
      + broadcastTo S512x768 (shapeCast S1x768 b shapeCasts_S768_S1x768) broadcasts_S1x768_S512x768 (ix2 p k) = _
  rw [Cert.ColumnLayout.broadcastTo_a1_ab_apply, Cert.ColumnLayout.broadcastTo_a1_ab_apply,
    Cert.LeadingAxisLayout.rows_apply, Cert.LeadingAxisLayout.rows_apply, muCol_apply]
  show (x (ix2 p k) - Adapter.mean (rowOf x p)) * Ideal.rsqrt (varCol x (ix2 p (0 : Fin 1)) + Ideal.ofBits .f32 0x3727C5AC#32)
      * g (ix1 k) + b (ix1 k) = _
  rw [varCol_apply]
  rfl

/-- The hidden chunk at `(p, j)`, from the rows of the normalised chunk. -/
theorem zMat_apply (wd : Vec Ideal S768x64 .bf16) (bd : Vec Ideal S64 .f32) (h : FVec Ideal S512x768 .f32)
    (p : Fin 512) (j : Fin 64) :
    zMat wd bd h (ix2 p j)
      = Adapter.hidden (fun k => h (ix2 p k)) (fun k j => wd (ix2 k j)) (fun j => bd (ix1 j)) j := by
  have e := Cert.PlainMatmul.plain_apply (M := 512) (K := 768) (N := 64) (φ₁ := .bf16) (φ₂ := .bf16) (truncf .bf16 h bitsLt_bf16_f32) (wd : FVec Ideal S768x64 .bf16) p j
  show max ((FloatOps.matmul dot_S512x768_S768x64_S512x64_1_0_0_1_n_n none (truncf .bf16 h bitsLt_bf16_f32)
        (shapeCast S768x64 wd shapeCasts_S768x64_S768x64 : FVec Ideal S768x64 .bf16) (constant S512x64 .f32 0x00000000#32) (ix2 p j) : EReal)
      + broadcastTo S512x64 (shapeCast S1x64 bd shapeCasts_S64_S1x64) broadcasts_S1x64_S512x64 (ix2 p j))
      (Ideal.ofBits .f32 0x00000000#32) = _
  rw [Cert.LeadingAxisLayout.rows_apply, shapeCast_self, Ideal.ofBits_zero_f32]
  exact congrArg (fun s => max (s + bd (ix1 j)) 0) e

/-- The output chunk at `(p, d)`, from the rows of the hidden chunk. -/
theorem oMat_apply (wu : Vec Ideal S64x768 .bf16) (bu : Vec Ideal S768 .f32) (z : FVec Ideal S512x64 .f32)
    (p : Fin 512) (d : Fin 768) :
    oMat wu bu z (ix2 p d)
      = Adapter.outRow (fun j => z (ix2 p j)) (fun j d => wu (ix2 j d)) (fun d => bu (ix1 d)) d := by
  have e := Cert.PlainMatmul.plain_apply (M := 512) (K := 64) (N := 768) (φ₁ := .bf16) (φ₂ := .bf16) (truncf .bf16 z bitsLt_bf16_f32) (wu : FVec Ideal S64x768 .bf16) p d
  show ((FloatOps.matmul dot_S512x64_S64x768_S512x768_1_0_0_1_n_n none (truncf .bf16 z bitsLt_bf16_f32)
        (shapeCast S64x768 wu shapeCasts_S64x768_S64x768 : FVec Ideal S64x768 .bf16) (constant S512x768 .f32 0x00000000#32) (ix2 p d) : EReal)
      + broadcastTo S512x768 (shapeCast S1x768 bu shapeCasts_S768_S1x768) broadcasts_S1x768_S512x768 (ix2 p d))
      * Ideal.ofBits .f32 0x3DCCCCCD#32 = _
  rw [Cert.LeadingAxisLayout.rows_apply, shapeCast_self]
  exact congrArg (fun s => (s + bu (ix1 d)) * Adapter.wScale) e

/-- Entry `(p, d)` of the body's payload: the adapter of row `p` of the loaded chunk, the variance in its
    mean-of-squares form. -/
theorem pay_apply (v0 v1 : Vec Ideal S768 .f32) (v2 : Vec Ideal S768x64 .bf16) (v4 : Vec Ideal S64 .f32)
    (v5 : Vec Ideal S64x768 .bf16) (v7 : Vec Ideal S768 .f32) (v12 : Vec Ideal S512x768 .f32) (p : Fin 512) (d : Fin 768) :
    Gen.k0_pay1 (F := Ideal) v0 v1 v2 v4 v5 v7 v12 (ix2 p d)
      = Adapter.adapterRow (Adapter.varK (fun k => v12 (ix2 p k))) (fun k => v12 (ix2 p k))
          (fun k => v0 (ix1 k)) (fun k => v1 (ix1 k)) (fun k j => v2 (ix2 k j)) (fun j => v4 (ix1 j))
          (fun j d => v5 (ix2 j d)) (fun d => v7 (ix1 d)) d := by
  rw [pay_eq, oMat_apply, shapeCast_self]
  unfold Adapter.adapterRow
  congr 1
  funext j
  rw [zMat_apply]
  congr 1
  funext k
  rw [hMat_apply]

end Cert.KernelIdeal.Row

end
-- ==== Proof.KernelBlock.lean ====
/-
  What one grid point leaves in the output's block.

  At a grid point the body loads the six parameter arrays whole and then, four times, loads a chunk of 512 rows of
  its 2048-row input block, computes, and stores the result at the same rows of the output block. The run of the
  body records these stores as a list of pieces, one per trip of the loop: the rectangle of rows
  `512 k … 512 k + 511` with the body's payload of the chunk loaded through that same rectangle
  (`mem_pieces`, by induction on the number of trips made). Because the payload works row by row, every piece
  agrees with ONE function of the whole input block — row `r` of the output block is the adapter of row `r` of
  the input block — and the four rectangles tile the block, so the block ends holding that function (`out_eq`).
-/
import proofs.«176521_j59270548685191_2_alg».proof.Proof.Gen.KernelIdeal.Frame
import proofs.«176521_j59270548685191_2_alg».proof.Proof.KernelRow
import Idealize.ShloMosaic.Lib.Pipeline.Value

set_option maxRecDepth 16384

noncomputable section

namespace Cert.KernelIdeal.Block

open Idealize.ShloMosaic Idealize.ShloMosaic.TcCoe Idealize.ShloMosaic.ValueIdx Idealize.SL.Sem
open Cert.KernelIdeal Cert.KernelIdeal.Gen

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl

/-- The rows `512 k … 512 k + 511` of the 2048-row block. -/
abbrev chunkRect (k : Fin k0_t1_loop.trips) : Rect S2048x768 :=
  Rect.unit (s := S2048x768) (k0_off1 k) S512x768.size (k0_off1_inb k)

/-- The pieces of the trips before `n`: each is some trip's rectangle of rows with the payload of the chunk read
    through it. -/
theorem mem_pb (𝒱 : Variants) (c : Dev nD) (bd : Option 𝒱.V) (i : grid0.Coords) (arg1 : Memref sig .tc .vmem S2048x768 .f32) (harg1 : arg1.IsWhole) (arg2 : Memref sig .tc .vmem S768 .f32) (harg2 : arg2.IsWhole) (arg3 : Memref sig .tc .vmem S768 .f32) (harg3 : arg3.IsWhole) (arg4 : Memref sig .tc .vmem S768x64 .bf16) (harg4 : arg4.IsWhole) (arg5 : Memref sig .tc .vmem S64 .f32) (harg5 : arg5.IsWhole) (arg6 : Memref sig .tc .vmem S64x768 .bf16) (harg6 : arg6.IsWhole) (arg7 : Memref sig .tc .vmem S768 .f32) (harg7 : arg7.IsWhole) (arg8 : Memref sig .tc .vmem S2048x768 .f32) (harg8 : arg8.IsWhole) (v0 : Vec F S768 .f32) (v1 : Vec F S768 .f32) (v2 : Vec F S768x64 .bf16) (v4 : Vec F S64 .f32) (v5 : Vec F S64x768 .bf16) (v7 : Vec F S768 .f32) (X : BufTy.Contents (Elt F) arg1.view.ty) :
    ∀ (n : ℕ) (p : View.Piece (Elt F) S2048x768 .f32),
      p ∈ pb_k0_t1 (F := F) 𝒱 c bd i arg1 harg1 arg2 harg2 arg3 harg3 arg4 harg4 arg5 harg5 arg6 harg6 arg7 harg7 arg8 harg8 v0 v1 v2 v4 v5 v7 X n →
      ∃ k : Fin k0_t1_loop.trips, p = ⟨chunkRect k, k0_pay1 v0 v1 v2 v4 v5 v7 (View.readAt (Elt F) arg1.view (chunkRect k).toLoadRect X)⟩
  | 0, p, hp => absurd hp List.not_mem_nil
  | n + 1, p, hp => by
    rw [pb_k0_t1.eq_2] at hp
    unfold pb_k0_t1Step at hp
    split at hp
    · rename_i hn
      rcases List.mem_append.mp hp with h | h
      · refine ⟨⟨n, hn⟩, ?_⟩
        unfold tripL_k0_t1 trip_k0_t1 at h
        dsimp only at h
        exact List.mem_singleton.mp h
      · exact mem_pb 𝒱 c bd i arg1 harg1 arg2 harg2 arg3 harg3 arg4 harg4 arg5 harg5 arg6 harg6 arg7 harg7 arg8 harg8 v0 v1 v2 v4 v5 v7 X n p h
    · exact mem_pb 𝒱 c bd i arg1 harg1 arg2 harg2 arg3 harg3 arg4 harg4 arg5 harg5 arg6 harg6 arg7 harg7 arg8 harg8 v0 v1 v2 v4 v5 v7 X n p hp

/-- The pieces the whole body leaves in the output's staging buffer, from the blocks it was given. -/
theorem mem_pieces (c : Dev nD) (i : grid0.Coords) (arg1 : Memref sig .tc .vmem S2048x768 .f32) (harg1 : arg1.IsWhole) (arg2 : Memref sig .tc .vmem S768 .f32) (harg2 : arg2.IsWhole) (arg3 : Memref sig .tc .vmem S768 .f32) (harg3 : arg3.IsWhole) (arg4 : Memref sig .tc .vmem S768x64 .bf16) (harg4 : arg4.IsWhole) (arg5 : Memref sig .tc .vmem S64 .f32) (harg5 : arg5.IsWhole) (arg6 : Memref sig .tc .vmem S64x768 .bf16) (harg6 : arg6.IsWhole) (arg7 : Memref sig .tc .vmem S768 .f32) (harg7 : arg7.IsWhole) (arg8 : Memref sig .tc .vmem S2048x768 .f32) (harg8 : arg8.IsWhole)
    (x0 : Vec F S2048x768 .f32) (x1 : Vec F S768 .f32) (x2 : Vec F S768 .f32) (x3 : Vec F S768x64 .bf16) (x4 : Vec F S64 .f32) (x5 : Vec F S64x768 .bf16) (x6 : Vec F S768 .f32)
    (p : View.Piece (Elt F) S2048x768 .f32)
    (hp : p ∈ (kernelRun0_A c i arg1 harg1 arg2 harg2 arg3 harg3 arg4 harg4 arg5 harg5 arg6 harg6 arg7 harg7 arg8 harg8 x0 x1 x2 x3 x4 x5 x6).1) :
    ∃ k : Fin k0_t1_loop.trips, p = ⟨chunkRect k, k0_pay1 x1 x2 x3 x4 x5 x6 (View.ld x0 (chunkRect k))⟩ := by
  unfold kernelRun0_A at hp
  dsimp only at hp
  obtain ⟨k, rfl⟩ := mem_pb _ _ _ _ _ _ _ _ _ _ _ _ _ _ _ _ _ _ _ _ _ _ _ _ _ _ _ _ _ hp
  refine ⟨k, ?_⟩
  simp only [View.readAt_eq_ld, harg1.read_unread, harg2.read_unread, harg3.read_unread, harg4.read_unread,
    harg5.read_unread, harg6.read_unread, harg7.read_unread, View.ld_unit_zero (S := S768) hz1,
    View.ld_unit_zero (S := S64) hz1, View.ld_unit_zero (S := S768x64) hz2, View.ld_unit_zero (S := S64x768) hz2]

/-- The adapter applied to every row of a 2048-row block. -/
def blockFn (x0 : Vec Ideal S2048x768 .f32) (x1 x2 : Vec Ideal S768 .f32) (x3 : Vec Ideal S768x64 .bf16)
    (x4 : Vec Ideal S64 .f32) (x5 : Vec Ideal S64x768 .bf16) (x6 : Vec Ideal S768 .f32) : Vec Ideal S2048x768 .f32 :=
  fun y => Adapter.adapterRow (Adapter.varK (fun k => x0 (ix2 (y 0) k))) (fun k => x0 (ix2 (y 0) k))
    (fun k => x1 (ix1 k)) (fun k => x2 (ix1 k)) (fun k j => x3 (ix2 k j)) (fun j => x4 (ix1 j))
    (fun j d => x5 (ix2 j d)) (fun d => x6 (ix1 d)) (y 1)

/-- Trip `k`'s piece agrees with `blockFn` on its rectangle: row `p` of the chunk is row `512 k + p` of the block,
    and the rectangle starts at column 0. -/
theorem piece_agrees (x0 : Vec Ideal S2048x768 .f32) (x1 x2 : Vec Ideal S768 .f32) (x3 : Vec Ideal S768x64 .bf16)
    (x4 : Vec Ideal S64 .f32) (x5 : Vec Ideal S64x768 .bf16) (x6 : Vec Ideal S768 .f32) (k : Fin k0_t1_loop.trips)
    (p : Fin 512) (d : Fin 768) :
    k0_pay1 (F := Ideal) x1 x2 x3 x4 x5 x6 (View.ld x0 (chunkRect k)) (ix2 p d)
      = blockFn x0 x1 x2 x3 x4 x5 x6 ((chunkRect k).emb (ix2 p d)) := by
  rw [Row.pay_apply]
  have ho : k0_off1 k = ![512 * k.val, 0] := k0_off1_eq k
  have hrow : ∀ q : Fin 768, (chunkRect k).emb (ix2 p q) = ix2 ((chunkRect k).emb (ix2 p d) 0) q := fun q =>
    funext fun a => Fin.ext (by
      match a with
      | ⟨0, _⟩ => rfl
      | ⟨1, _⟩ => show k0_off1 k 1 + 1 * q.val = q.val; rw [ho]; simp)
  have hcol : (chunkRect k).emb (ix2 p d) 1 = d := Fin.ext (by
    show k0_off1 k 1 + 1 * d.val = d.val; rw [ho]; simp)
  unfold blockFn
  rw [hcol]
  have hld : (fun q : Fin 768 => View.ld x0 (chunkRect k) (ix2 p q)) = fun q => x0 (ix2 ((chunkRect k).emb (ix2 p d) 0) q) :=
    funext fun q => congrArg x0 (hrow q)
  rw [hld]

/-- What the body leaves in the output's block: the adapter of every row of the input block. -/
theorem out_eq (c : Dev nD) (i : grid0.Coords) (arg1 : Memref sig .tc .vmem S2048x768 .f32) (harg1 : arg1.IsWhole) (arg2 : Memref sig .tc .vmem S768 .f32) (harg2 : arg2.IsWhole) (arg3 : Memref sig .tc .vmem S768 .f32) (harg3 : arg3.IsWhole) (arg4 : Memref sig .tc .vmem S768x64 .bf16) (harg4 : arg4.IsWhole) (arg5 : Memref sig .tc .vmem S64 .f32) (harg5 : arg5.IsWhole) (arg6 : Memref sig .tc .vmem S64x768 .bf16) (harg6 : arg6.IsWhole) (arg7 : Memref sig .tc .vmem S768 .f32) (harg7 : arg7.IsWhole) (arg8 : Memref sig .tc .vmem S2048x768 .f32) (harg8 : arg8.IsWhole)
    (x0 : Vec Ideal S2048x768 .f32) (x1 : Vec Ideal S768 .f32) (x2 : Vec Ideal S768 .f32) (x3 : Vec Ideal S768x64 .bf16) (x4 : Vec Ideal S64 .f32) (x5 : Vec Ideal S64x768 .bf16) (x6 : Vec Ideal S768 .f32) :
    out0_A_7 (F := Ideal) c i arg1 harg1 arg2 harg2 arg3 harg3 arg4 harg4 arg5 harg5 arg6 harg6 arg7 harg7 arg8 harg8 x0 x1 x2 x3 x4 x5 x6
      = blockFn x0 x1 x2 x3 x4 x5 x6 := by
  funext y
  unfold out0_A_7
  refine View.read_writes_apply_of_pieces _ _ (blockFn x0 x1 x2 x3 x4 x5 x6) _ ?_ y
    (cover0_A_7 c i arg1 harg1 arg2 harg2 arg3 harg3 arg4 harg4 arg5 harg5 arg6 harg6 arg7 harg7 arg8 harg8 x0 x1 x2 x3 x4 x5 x6 y)
  intro p hp x
  obtain ⟨k, rfl⟩ := mem_pieces c i arg1 harg1 arg2 harg2 arg3 harg3 arg4 harg4 arg5 harg5 arg6 harg6 arg7 harg7 arg8 harg8 x0 x1 x2 x3 x4 x5 x6 p hp
  obtain ⟨p', d, rfl⟩ : ∃ (p' : Fin 512) (d : Fin 768), x = ix2 p' d := ⟨x 0, x 1, eq_ix2 x⟩
  exact piece_agrees x0 x1 x2 x3 x4 x5 x6 k p' d

end Cert.KernelIdeal.Block

end
-- ==== Proof.LibRank3Layout.lean ====
/-
  Rank-3 layout operations read at coordinates — the forms a body meets when it compares every entry of an `[a, b]`
  block with every entry of a length-`n` vector and then flattens the two leading axes for a matrix product:

  • a TRAILING unit axis added by a shape cast, `[a, b] → [a, b, 1]` (`shapeCast_ab_ab1_apply`);
  • a vector laid along the LAST axis by a shape cast, `[n] → [1, 1, n]` (`shapeCast_n_11n_apply`);
  • the broadcast of the first along the last axis, `[a, b, 1] → [a, b, n]` (`broadcastTo_ab1_abn_apply`), and of the
    second along the two leading axes, `[1, 1, n] → [a, b, n]` (`broadcastTo_11n_abn_apply`);
  • the two composites, which read `(r, s, k)` at `(r, s)` of the block (`column_apply`) and at `k` of the vector
    (`row_apply`);
  • the two leading axes MERGED, `[a, b, n] → [m, n]` with `m = a·b`, and SPLIT again, `[m, d] → [a, b, d]`: row
    `j = r·b + s` of the flat array is row `(r, s)` of the stacked one (`shapeCast_abn_mn_apply`,
    `shapeCast_md_abd_apply`; the flat row is passed with the equation `j = r·b + s`, so that a literal extent such
    as `4096` need not be recognised as a product).

  Each is the library's `shapeCast_apply` (equal row-major positions) or `broadcastTo_apply` (a unit axis reads
  coordinate `0`) with both indices written by coordinates, at every extent.
-/
import Idealize.ShloMosaic.Lib.Pipeline.Value
import Idealize.ShloMosaic.Lib.ValueIdx

namespace Cert.Rank3Layout

open Idealize.ShloMosaic Idealize.ShloMosaic.ValueIdx

variable {α : Type}

/-- An `[a, b]` array cast to `[a, b, 1]` reads, at `(r, s, u)`, the operand at `(r, s)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (r : Fin a) (s : Fin b) (u : Fin 1) :
    shapeCast ⟨3, ![a, b, 1]⟩ x h (ix3 r s u) = x (ix2 r s) :=
  shapeCast_apply x h _ _ (by
    have hu : u.val = 0 := by omega
    rw [Shape.rowMajor_val_two, Shape.rowMajor_val_three]
    show r.val * b + s.val = (r.val * b + s.val) * 1 + u.val
    rw [hu, Nat.mul_one, Nat.add_zero])

/-- An `[n]` vector cast to `[1, 1, n]` reads, at `(u, u', k)`, the operand at `k`, whatever the unit coordinates. -/
theorem shapeCast_n_11n_apply {n : ℕ} (q : (⟨1, ![n]⟩ : Shape).Idx → α)
    (h : (⟨1, ![n]⟩ : Shape).ShapeCasts ⟨3, ![1, 1, n]⟩) (u u' : Fin 1) (k : Fin n) :
    shapeCast ⟨3, ![1, 1, n]⟩ q h (ix3 u u' k) = q (ix1 k) :=
  shapeCast_apply q h _ _ (by
    have hu : u.val = 0 := by omega
    have hu' : u'.val = 0 := by omega
    rw [Shape.rowMajor_val_one, Shape.rowMajor_val_three]
    show k.val = (u.val * 1 + u'.val) * n + k.val
    rw [hu, hu']; simp)

/-- An `[a, b, 1]` array broadcast to `[a, b, n]` reads, at `(r, s, k)`, the operand at `(r, s, 0)`. -/
theorem broadcastTo_ab1_abn_apply {a b n : ℕ} (y : (⟨3, ![a, b, 1]⟩ : Shape).Idx → α)
    (h : (⟨3, ![a, b, 1]⟩ : Shape).Broadcasts ⟨3, ![a, b, n]⟩) (r : Fin a) (s : Fin b) (k : Fin n) :
    broadcastTo ⟨3, ![a, b, n]⟩ y h (ix3 r s k) = y (ix3 r s (0 : Fin 1)) := by
  refine broadcastTo_apply y h (ix3 r s k) (ix3 r s (0 : Fin 1)) fun ax => ?_
  match ax with
  | ⟨0, _⟩ =>
    show r.val = if a = 1 then 0 else r.val
    split
    · have := r.isLt; omega
    · rfl
  | ⟨1, _⟩ =>
    show s.val = if b = 1 then 0 else s.val
    split
    · have := s.isLt; omega
    · rfl
  | ⟨2, _⟩ => rfl

/-- A `[1, 1, n]` array broadcast to `[a, b, n]` reads, at `(r, s, k)`, the operand at `(0, 0, k)`. -/
theorem broadcastTo_11n_abn_apply {a b n : ℕ} (q : (⟨3, ![1, 1, n]⟩ : Shape).Idx → α)
    (h : (⟨3, ![1, 1, n]⟩ : Shape).Broadcasts ⟨3, ![a, b, n]⟩) (r : Fin a) (s : Fin b) (k : Fin n) :
    broadcastTo ⟨3, ![a, b, n]⟩ q h (ix3 r s k) = q (ix3 (0 : Fin 1) (0 : Fin 1) k) := by
  refine broadcastTo_apply q h (ix3 r s k) (ix3 (0 : Fin 1) (0 : Fin 1) k) fun ax => ?_
  match ax with
  | ⟨0, _⟩ => rfl
  | ⟨1, _⟩ => rfl
  | ⟨2, _⟩ =>
    show k.val = if n = 1 then 0 else k.val
    split
    · have := k.isLt; omega
    · rfl

/-- An `[a, b]` block given a trailing unit axis and broadcast along it: `(r, s, k)` reads the block at `(r, s)`. -/
theorem column_apply {a b n : ℕ} (x : (⟨2, ![a, b]⟩ : Shape).Idx → α)
    (hc : (⟨2, ![a, b]⟩ : Shape).ShapeCasts ⟨3, ![a, b, 1]⟩) (hb : (⟨3, ![a, b, 1]⟩ : Shape).Broadcasts ⟨3, ![a, b, n]⟩)
    (r : Fin a) (s : Fin b) (k : Fin n) :
    broadcastTo ⟨3, ![a, b, n]⟩ (shapeCast ⟨3, ![a, b, 1]⟩ x hc) hb (ix3 r s k) = x (ix2 r s) :=
  (broadcastTo_ab1_abn_apply _ hb r s k).trans (shapeCast_ab_ab1_apply x hc r s 0)

/-- A length-`n` vector laid along the last axis and broadcast over the two leading ones: `(r, s, k)` reads it at `k`. -/
theorem row_apply {a b n : ℕ} (q : (⟨1, ![n]⟩ : Shape).Idx → α)
    (hc : (⟨1, ![n]⟩ : Shape).ShapeCasts ⟨3, ![1, 1, n]⟩) (hb : (⟨3, ![1, 1, n]⟩ : Shape).Broadcasts ⟨3, ![a, b, n]⟩)
    (r : Fin a) (s : Fin b) (k : Fin n) :
    broadcastTo ⟨3, ![a, b, n]⟩ (shapeCast ⟨3, ![1, 1, n]⟩ q hc) hb (ix3 r s k) = q (ix1 k) :=
  (broadcastTo_11n_abn_apply _ hb r s k).trans (shapeCast_n_11n_apply q hc 0 0 k)

/-- The two leading axes merged: an `[a, b, n]` array cast to `[m, n]` reads, at `(j, k)` with `j = r·b + s`, the
    operand at `(r, s, k)`. -/
theorem shapeCast_abn_mn_apply {a b n m : ℕ} (w : (⟨3, ![a, b, n]⟩ : Shape).Idx → α)
    (h : (⟨3, ![a, b, n]⟩ : Shape).ShapeCasts ⟨2, ![m, n]⟩) (r : Fin a) (s : Fin b) (k : Fin n) (j : Fin m)
    (hj : j.val = r.val * b + s.val) :
    shapeCast ⟨2, ![m, n]⟩ w h (ix2 j k) = w (ix3 r s k) :=
  shapeCast_apply w h _ _ (by
    rw [Shape.rowMajor_val_three, Shape.rowMajor_val_two]
    show (r.val * b + s.val) * n + k.val = j.val * n + k.val
    rw [hj])

/-- The leading axis split in two: an `[m, d]` array cast to `[a, b, d]` reads, at `(r, s, e)`, the operand at `(j, e)`
    with `j = r·b + s`. -/
theorem shapeCast_md_abd_apply {a b d m : ℕ} (z : (⟨2, ![m, d]⟩ : Shape).Idx → α)
    (h : (⟨2, ![m, d]⟩ : Shape).ShapeCasts ⟨3, ![a, b, d]⟩) (r : Fin a) (s : Fin b) (e : Fin d) (j : Fin m)
    (hj : j.val = r.val * b + s.val) :
    shapeCast ⟨3, ![a, b, d]⟩ z h (ix3 r s e) = z (ix2 j e) :=
  shapeCast_apply z h _ _ (by
    rw [Shape.rowMajor_val_two, Shape.rowMajor_val_three]
    show j.val * d + e.val = (r.val * b + s.val) * d + e.val
    rw [hj])

end Cert.Rank3Layout
-- ==== Proof.KernelArray.lean ====
/-
  From the blocks to the whole result array of the kernel.

  The call's grid has 32 points; point `t` reads rows `2048 t … 2048 t + 2047` of the flattened input
  `[65536, 768]` and all of every parameter array, and writes back the same rows of the flattened output. Since a
  point's output block is the adapter of every row of its input block (the previous module), what point `t`
  writes back is block `t` of ONE function of the arrays the call was given — row `R` of the output is the adapter
  of row `R` of the input (`flushed_eq`) — and the 32 blocks tile the array (`cover`), so the call's result holds
  that function (`final`). Around the call the program only re-lays values: the input `[16, 4096, 768]` is flattened
  to `[65536, 768]` (row `4096 b + t` is row `(b, t)`), the two weight matrices change float format (the identity
  on the extended reals), and the result is unflattened. So the program's result at `(b, t, d)` is the adapter of
  row `(b, t)` of `x`, the variance in its mean-of-squares form, at `d` (`kernel_result`, `run`).
-/
import proofs.«176521_j59270548685191_2_alg».proof.Proof.Gen.KernelIdeal.Frame
import proofs.«176521_j59270548685191_2_alg».proof.Proof.KernelBlock
import proofs.«176521_j59270548685191_2_alg».proof.Proof.LibRank3Layout
import Idealize.ShloMosaic.Lib.Pipeline.Value
import Idealize.ShloMosaic.Lib.StableHlo.Run
import Idealize.ShloMosaic.Lib.Tactic

set_option maxRecDepth 16384

noncomputable section

namespace Cert.KernelIdeal.Array

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The adapter applied to every row of the flattened input. -/
def arrFn (X : S65536x768.Idx → EReal) (g b : S768.Idx → EReal) (Wd : S768x64.Idx → EReal) (bd : S64.Idx → EReal)
    (Wu : S64x768.Idx → EReal) (bu : S768.Idx → EReal) : S65536x768.Idx → EReal :=
  fun i => Adapter.adapterRow (Adapter.varK (fun k => X (ix2 (i 0) k))) (fun k => X (ix2 (i 0) k))
    (fun k => g (ix1 k)) (fun k => b (ix1 k)) (fun k j => Wd (ix2 k j)) (fun j => bd (ix1 j))
    (fun j d => Wu (ix2 j d)) (fun d => bu (ix1 d)) (i 1)

/-- A block's function at `(r, d)` is the array's function at `(R, d)` when row `r` of the block is row `R` of the
    array and the parameter blocks are the parameter arrays. -/
theorem blockFn_arrFn (x0 : Vec Ideal S2048x768 .f32) (x1 x2 : Vec Ideal S768 .f32) (x3 : Vec Ideal S768x64 .bf16)
    (x4 : Vec Ideal S64 .f32) (x5 : Vec Ideal S64x768 .bf16) (x6 : Vec Ideal S768 .f32)
    (X : S65536x768.Idx → EReal) (g b : S768.Idx → EReal) (Wd : S768x64.Idx → EReal) (bd : S64.Idx → EReal)
    (Wu : S64x768.Idx → EReal) (bu : S768.Idx → EReal) (r : Fin 2048) (d : Fin 768) (R : Fin 65536)
    (h0 : ∀ k : Fin 768, x0 (ix2 r k) = X (ix2 R k)) (h1 : ∀ k : Fin 768, x1 (ix1 k) = g (ix1 k))
    (h2 : ∀ k : Fin 768, x2 (ix1 k) = b (ix1 k)) (h3 : ∀ (k : Fin 768) (q : Fin 64), x3 (ix2 k q) = Wd (ix2 k q))
    (h4 : ∀ q : Fin 64, x4 (ix1 q) = bd (ix1 q)) (h5 : ∀ (q : Fin 64) (e : Fin 768), x5 (ix2 q e) = Wu (ix2 q e))
    (h6 : ∀ e : Fin 768, x6 (ix1 e) = bu (ix1 e)) :
    Block.blockFn x0 x1 x2 x3 x4 x5 x6 (ix2 r d) = arrFn X g b Wd bd Wu bu (ix2 R d) := by
  show Adapter.adapterRow (Adapter.varK (fun k => x0 (ix2 r k))) (fun k => x0 (ix2 r k))
      (fun k => x1 (ix1 k)) (fun k => x2 (ix1 k)) (fun k j => x3 (ix2 k j)) (fun j => x4 (ix1 j))
      (fun j e => x5 (ix2 j e)) (fun e => x6 (ix1 e)) d
    = Adapter.adapterRow (Adapter.varK (fun k => X (ix2 R k))) (fun k => X (ix2 R k))
      (fun k => g (ix1 k)) (fun k => b (ix1 k)) (fun k j => Wd (ix2 k j)) (fun j => bd (ix1 j))
      (fun j e => Wu (ix2 j e)) (fun e => bu (ix1 e)) d
  rw [funext h0, funext h1, funext h2, funext h4, funext h6,
    show (fun k j => x3 (ix2 k j)) = (fun k j => Wd (ix2 k j)) from funext fun k => funext fun q => h3 k q,
    show (fun j e => x5 (ix2 j e)) = (fun j e => Wu (ix2 j e)) from funext fun q => funext fun e => h5 q e]

/-- The printed index maps, decided over the grid: the input and output blocks move together along the rows, every
    other block index is zero. -/
theorem idx_facts : ∀ t : Fin cfg0.N, win0_0.index t (0 : Fin 2) = win0_7.index t (0 : Fin 2)
    ∧ win0_0.index t (1 : Fin 2) = 0 ∧ win0_7.index t (1 : Fin 2) = 0
    ∧ win0_1.index t (0 : Fin 1) = 0 ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) < 32 :=
  (by decide +kernel : ∀ t : Fin grid0.N, _)

/-- Every block of rows is some point's. -/
theorem idx_onto : ∀ q : Fin 32, ∃ t : Fin cfg0.N, win0_7.index t = ![q.val, 0] :=
  (by decide +kernel : ∀ q : Fin 32, ∃ t : Fin grid0.N, win0_7.index t = ![q.val, 0])

/-- The arrays the call is given, as the region finds them. -/
abbrev callFn (c : Dev nD) : S65536x768.Idx → EReal :=
  arrFn (V m c main_call0_v0) (V m c main_arg1) (V m c main_arg2) (V m c main_call0_v1) (V m c main_arg4)
    (V m c main_call0_v2) (V m c main_arg6)

/-- What point `t` writes back is block `t` of the adapter of the flattened input's rows. -/
theorem flushed_eq (c : Dev nD) (t : Fin cfg0.N) :
    (dats m 0 c).flushed 7 t = ((cfg0.win 7).blk t).view.read (Elt Ideal) (callFn m c) := by
  show (cfg0.win 7).cut (grid0.coords t) ((dats m 0 c).after 7 t) = _
  rw [after0_7]
  unfold outsAt0
  rw [Block.out_eq]
  obtain ⟨e0, e1, e2, e3, e4, e5, e6, e7, e8, e9, e10, e11⟩ := idx_facts t
  funext j
  obtain ⟨r, d, rfl⟩ : ∃ (r : Fin 2048) (d : Fin 768), j = ix2 r d := ⟨j 0, j 1, eq_ix2 j⟩
  have hR : win0_7.index t (0 : Fin 2) * 2048 + r.val < 65536 := by have := r.isLt; omega
  have hi : ((cfg0.win 7).blk t).view.emb (ix2 r d) = ix2 (⟨win0_7.index t (0 : Fin 2) * 2048 + r.val, hR⟩ : Fin 65536) d :=
    funext fun a => Fin.ext (by
      match a with
      | ⟨0, _⟩ => show win0_7.index t (0 : Fin 2) * 2048 + 1 * r.val = win0_7.index t (0 : Fin 2) * 2048 + r.val; omega
      | ⟨1, _⟩ => show win0_7.index t (1 : Fin 2) * 768 + 1 * d.val = d.val; omega)
  show Block.blockFn (iblk m c 0 t) (iblk m c 1 t) (iblk m c 2 t) (iblk m c 3 t) (iblk m c 4 t) (iblk m c 5 t) (iblk m c 6 t) (ix2 r d)
      = callFn m c (((cfg0.win 7).blk t).view.emb (ix2 r d))
  rw [hi]
  refine blockFn_arrFn _ _ _ _ _ _ _ _ _ _ _ _ _ _ r d _ ?_ ?_ ?_ ?_ ?_ ?_ ?_
  · intro k
    show V m c main_call0_v0 (((cfg0.win 0).blk t).view.emb (ix2 r k)) = V m c main_call0_v0 _
    refine congrArg (V m c main_call0_v0) (funext fun a => Fin.ext ?_)
    match a with
    | ⟨0, _⟩ => show win0_0.index t (0 : Fin 2) * 2048 + 1 * r.val = win0_7.index t (0 : Fin 2) * 2048 + r.val; omega
    | ⟨1, _⟩ => show win0_0.index t (1 : Fin 2) * 768 + 1 * k.val = k.val; omega
  · intro k
    show V m c main_arg1 (((cfg0.win 1).blk t).view.emb (ix1 k)) = V m c main_arg1 _
    refine congrArg (V m c main_arg1) (funext fun a => Fin.ext ?_)
    match a with
    | ⟨0, _⟩ => show win0_1.index t (0 : Fin 1) * 768 + 1 * k.val = k.val; omega
  · intro k
    show V m c main_arg2 (((cfg0.win 2).blk t).view.emb (ix1 k)) = V m c main_arg2 _
    refine congrArg (V m c main_arg2) (funext fun a => Fin.ext ?_)
    match a with
    | ⟨0, _⟩ => show win0_2.index t (0 : Fin 1) * 768 + 1 * k.val = k.val; omega
  · intro k q
    show V m c main_call0_v1 (((cfg0.win 3).blk t).view.emb (ix2 k q)) = V m c main_call0_v1 _
    refine congrArg (V m c main_call0_v1) (funext fun a => Fin.ext ?_)
    match a with
    | ⟨0, _⟩ => show win0_3.index t (0 : Fin 2) * 768 + 1 * k.val = k.val; omega
    | ⟨1, _⟩ => show win0_3.index t (1 : Fin 2) * 64 + 1 * q.val = q.val; omega
  · intro q
    show V m c main_arg4 (((cfg0.win 4).blk t).view.emb (ix1 q)) = V m c main_arg4 _
    refine congrArg (V m c main_arg4) (funext fun a => Fin.ext ?_)
    match a with
    | ⟨0, _⟩ => show win0_4.index t (0 : Fin 1) * 64 + 1 * q.val = q.val; omega
  · intro q e
    show V m c main_call0_v2 (((cfg0.win 5).blk t).view.emb (ix2 q e)) = V m c main_call0_v2 _
    refine congrArg (V m c main_call0_v2) (funext fun a => Fin.ext ?_)
    match a with
    | ⟨0, _⟩ => show win0_5.index t (0 : Fin 2) * 64 + 1 * q.val = q.val; omega
    | ⟨1, _⟩ => show win0_5.index t (1 : Fin 2) * 768 + 1 * e.val = e.val; omega
  · intro e
    show V m c main_arg6 (((cfg0.win 6).blk t).view.emb (ix1 e)) = V m c main_arg6 _
    refine congrArg (V m c main_arg6) (funext fun a => Fin.ext ?_)
    match a with
    | ⟨0, _⟩ => show win0_6.index t (0 : Fin 1) * 768 + 1 * e.val = e.val; omega

/-- An index of the flattened output is in point `t`'s block iff each coordinate is in the block's range. -/
theorem mem_blk (t : Fin cfg0.N) (i : S65536x768.Idx) :
    i ∈ ((cfg0.win 7).blk t).view.set ↔ ∀ a : Fin 2, win0_7.index t a * S2048x768.size a ≤ (i a).val
      ∧ (i a).val < win0_7.index t a * S2048x768.size a + S2048x768.size a := by
  show i ∈ ((View.whole main_call0_v3).slice (win0_7.rect t)).set ↔ _
  rw [View.set_slice_whole, Rect.mem_set_unit]
  exact Iff.rfl

/-- The 32 blocks of 2048 rows cover the flattened output: row `R` is in the block of point `R / 2048`. -/
theorem cover (i : S65536x768.Idx) :
    ∃ t : Fin cfg0.N, (cfg0.win 7).flush t = true ∧ i ∈ ((cfg0.win 7).blk t).view.set := by
  have hi0 : (i 0).val < 65536 := (i 0).isLt
  have hi1 : (i 1).val < 768 := (i 1).isLt
  obtain ⟨t, ht⟩ := idx_onto ⟨(i 0).val / 2048, by omega⟩
  have q0 : win0_7.index t (0 : Fin 2) = (i 0).val / 2048 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 2048 ≤ (i 0).val ∧ (i 0).val < win0_7.index t (0 : Fin 2) * 2048 + 2048; omega
  | ⟨1, _⟩ => show win0_7.index t (1 : Fin 2) * 768 ≤ (i 1).val ∧ (i 1).val < win0_7.index t (1 : Fin 2) * 768 + 768; omega

/-- The call's result array after the run: the adapter of every row of the flattened input. -/
theorem final (c : Dev nD) : (dats m 0 c).arrAt 7 cfg0.N = callFn m c :=
  (dats m 0 c).arrAt_eq_of_cover 7 (callFn m c) (fun t _ => flushed_eq m c t) (cover)

end Cert.KernelIdeal.Array

end
-- ==== Proof.KernelResult.lean ====
/-
  The program around the call, and its run.

  Before the call the input `[16, 4096, 768]` is flattened to `[65536, 768]` and the two weight matrices change
  float format; after it the result `[65536, 768]` is unflattened to `[16, 4096, 768]`. Flattening puts row `(b, t)`
  at row `4096 b + t`, a change of format is the identity on the extended reals, and the call's result is the adapter
  of every row of the flattened input (the previous module): so the program's result at `(b, t, d)` is the adapter of
  row `(b, t)` of `x`, the variance in its mean-of-squares form (`kernel_result`); `run` restates the program's run
  with that array named.
-/
import proofs.«176521_j59270548685191_2_alg».proof.Proof.KernelArray
import proofs.«176521_j59270548685191_2_alg».proof.Proof.AdapterArray

set_option maxRecDepth 16384

noncomputable section

namespace Cert.KernelIdeal.Result

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Array

variable (m : (ℓ : Loc nD τ sig) → Buf (Elt Ideal) ℓ) (ρ : Dev nD → PrngReg)

/-- The call's first operand is the input flattened. -/
theorem V_x (c : Dev nD) : (V m c main_call0_v0 : S65536x768.Idx → EReal)
    = shapeCast S65536x768 (m ((c : Thread nD τ).loc main_arg0) : S16x4096x768.Idx → EReal) Facts₀.shapeCasts_S16x4096x768_S65536x768 := by
  show StableHlo.after hostOps0 (fun b => m (c, b)) (Proc.devRef .tc main_call0_v0) = _
  after_results
  rfl

/-- The call's down-projection operand is `W_down`: a change of float format is the identity. -/
theorem V_wd (c : Dev nD) : (V m c main_call0_v1 : S768x64.Idx → EReal)
    = (m ((c : Thread nD τ).loc main_arg3) : S768x64.Idx → EReal) := by
  show StableHlo.after hostOps0 (fun b => m (c, b)) (Proc.devRef .tc main_call0_v1) = _
  after_results
  rfl

/-- The call's up-projection operand is `W_up`. -/
theorem V_wu (c : Dev nD) : (V m c main_call0_v2 : S64x768.Idx → EReal)
    = (m ((c : Thread nD τ).loc main_arg5) : S64x768.Idx → EReal) := by
  show StableHlo.after hostOps0 (fun b => m (c, b)) (Proc.devRef .tc main_call0_v2) = _
  after_results
  rfl

/-- The program's result is the call's result unflattened. -/
theorem tail_eq (c : Dev nD) : (Pipeline.afterTail₀ cfgs (dats m) 0 (V0 m) [hostOps1] c main_v0 : S16x4096x768.Idx → EReal)
    = shapeCast S16x4096x768 ((dats m 0 c).arrAt 7 cfg0.N : S65536x768.Idx → EReal) Facts₀.shapeCasts_S65536x768_S16x4096x768 := by
  unfold Pipeline.afterTail₀
  show StableHlo.after hostOps1 _ (Proc.devRef .tc main_v0) = _
  after_results
  rw [show Pipeline.withArrays (cfgs 0).spec c (V0 m c) (fun w => (dats m 0 c).arrAt w (cfgs 0).N) (Proc.devRef .tc main_call0_v3)
      = (dats m 0 c).arrAt 7 cfg0.N from Pipeline.withArrays_arr spec0 launch0.win.arr_inj c _ _ 7]
  rfl

/-- The program's result: the adapter of every row `(b, t)` of `x`, the variance as mean of squares minus squared mean. -/
theorem kernel_result (c : Dev nD) :
    (Pipeline.afterTail₀ cfgs (dats m) 0 (V0 m) [hostOps1] c main_v0 : S16x4096x768.Idx → EReal)
      = Adapter.resultFn Adapter.varK (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  rw [tail_eq, final]
  funext i
  obtain ⟨b, t, d, rfl⟩ : ∃ (b : Fin 16) (t : Fin 4096) (d : Fin 768), i = ix3 b t d := ⟨i 0, i 1, i 2, eq_ix3 i⟩
  have hj : b.val * 4096 + t.val < 65536 := by have := b.isLt; have := t.isLt; omega
  rw [Cert.Rank3Layout.shapeCast_md_abd_apply _ _ b t d (⟨b.val * 4096 + t.val, hj⟩ : Fin 65536) rfl]
  show Adapter.adapterRow (Adapter.varK (fun k => V m c main_call0_v0 (ix2 (⟨b.val * 4096 + t.val, hj⟩ : Fin 65536) k)))
      (fun k => V m c main_call0_v0 (ix2 (⟨b.val * 4096 + t.val, hj⟩ : Fin 65536) k))
      (fun k => V m c main_arg1 (ix1 k)) (fun k => V m c main_arg2 (ix1 k)) (fun k j => V m c main_call0_v1 (ix2 k j))
      (fun j => V m c main_arg4 (ix1 j)) (fun j e => V m c main_call0_v2 (ix2 j e)) (fun e => V m c main_arg6 (ix1 e)) d
    = Adapter.adapterRow (Adapter.varK (fun k => m ((c : Thread nD τ).loc main_arg0) (ix3 b t k)))
      (fun k => m ((c : Thread nD τ).loc main_arg0) (ix3 b t k))
      (fun k => m ((c : Thread nD τ).loc main_arg1) (ix1 k)) (fun k => m ((c : Thread nD τ).loc main_arg2) (ix1 k))
      (fun k j => m ((c : Thread nD τ).loc main_arg3) (ix2 k j)) (fun j => m ((c : Thread nD τ).loc main_arg4) (ix1 j))
      (fun j e => m ((c : Thread nD τ).loc main_arg5) (ix2 j e)) (fun e => m ((c : Thread nD τ).loc main_arg6) (ix1 e)) d
  have hx : ∀ k : Fin 768, V m c main_call0_v0 (ix2 (⟨b.val * 4096 + t.val, hj⟩ : Fin 65536) k)
      = m ((c : Thread nD τ).loc main_arg0) (ix3 b t k) := fun k => by
    rw [V_x]
    exact Cert.Rank3Layout.shapeCast_abn_mn_apply _ _ b t k _ rfl
  rw [funext hx, V_main_arg1, V_main_arg2, V_main_arg4, V_main_arg6, V_wd, V_wu]

/-- The program's run, read: the result array at the adapter of every row of `x`, the arguments unchanged. -/
theorem run : θ_run defs (onTc (τ := τ) (main (F := Ideal))) ⟨m, fun _ => 0, ρ⟩ fun r => ∀ c : Dev nD,
      r.2.mem ((c.tc : Thread nD τ).loc main_v0)
        = Adapter.resultFn Adapter.varK (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun _ h c => ?_) (run_main (F := Ideal) m ρ)
  exact ⟨((h c).2 main_v0 (Pipeline.mem_restRefs_of main_v0 (by decide) (by decide))).trans (kernel_result m c),
    ((h c).2 main_arg0 (Pipeline.mem_restRefs_of main_arg0 (by decide) (by decide))).trans (W_main_arg0 m (dats m) c),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (W_main_arg3 m (dats m) c),
    ((h c).1 4).trans (((dats m 0 c).arrAt_in 4 rfl _).trans ((A_eq m c 4).trans (V_main_arg4 m c))),
    ((h c).2 main_arg5 (Pipeline.mem_restRefs_of main_arg5 (by decide) (by decide))).trans (W_main_arg5 m (dats m) c),
    ((h c).1 6).trans (((dats m 0 c).arrAt_in 6 rfl _).trans ((A_eq m c 6).trans (V_main_arg6 m c)))⟩

end Cert.KernelIdeal.Result

end
-- ==== Proof.RefRow.lean ====
/-
  The reference's result, read one entry at a time on the extended reals.

  The reference works on the whole `[16, 4096, 768]` array at once; read at an entry `(b, t, d)` every one of its
  operations depends only on row `(b, t)` of `x`: the mean and the variance (here the mean of the squared deviations)
  are sums along the row kept with a unit last axis and spread back along it, the parameter vectors are laid along the
  last axis and spread over the rows, and the two products contract the last axis. Stage by stage — mean, variance,
  normalised row, hidden row, output — the entry is the adapter of row `(b, t)` with the variance in its
  mean-of-squared-deviations form, at `d` (`ref_apply`). The sum's initial word 0.0 denotes 0.
-/
import proofs.«176521_j59270548685191_2_alg».proof.Proof.Gen.ReferenceIdeal.Read
import proofs.«176521_j59270548685191_2_alg».proof.Proof.AdapterSpec

noncomputable section

namespace Cert.ReferenceIdeal.RefRow

open Idealize.ShloMosaic Idealize.ShloMosaic.ValueIdx
open Cert.ReferenceIdeal Cert.ReferenceIdeal.Read

/-- Row `(b, t)` of the input. -/
abbrev rowOf (x0 : S16x4096x768.Idx → EReal) (b : Fin 16) (t : Fin 4096) : Fin 768 → EReal := fun k => x0 (ix3 b t k)

/-- The mean, kept with a unit last axis, at `(b, t, 0)`. -/
theorem mean_apply (x0 : S16x4096x768.Idx → EReal) (b : Fin 16) (t : Fin 4096) (u : Fin 1) :
    val_main_v3 (F := Ideal) x0 (ix3 b t u) = Adapter.mean (rowOf x0 b t) := by
  rw [val_main_v3_apply, val_main_v1_apply, val_main_v0_apply, val_main_v2_apply, val_main_cst_0_apply, val_main_cst_apply]
  have e : ∀ k, idx_main_v0 (idx_main_v1 (ix3 b t u)) k = ix3 b t k := fun k => funext fun a => Fin.ext (by
    match a with | ⟨0, _⟩ => rfl | ⟨1, _⟩ => rfl | ⟨2, _⟩ => rfl)
  simp only [e, Ideal.hostDivf_def, Ideal.ofBits_def, Ideal.ofBits_zero_f32, zero_add]
  rfl

/-- The variance (mean of the squared deviations), kept with a unit last axis, at `(b, t, 0)`. -/
theorem var_apply (x0 : S16x4096x768.Idx → EReal) (b : Fin 16) (t : Fin 4096) (u : Fin 1) :
    val_main_v10 (F := Ideal) x0 (ix3 b t u) = Adapter.varR (rowOf x0 b t) := by
  rw [val_main_v10_apply, val_main_v8_apply, val_main_v7_apply, val_main_v9_apply, val_main_cst_2_apply, val_main_cst_1_apply]
  have e7 : ∀ k, idx_main_v7 (idx_main_v8 (ix3 b t u)) k = ix3 b t k := fun k => funext fun a => Fin.ext (by
    match a with | ⟨0, _⟩ => rfl | ⟨1, _⟩ => rfl | ⟨2, _⟩ => rfl)
  have e6 : ∀ k : Fin 768, val_main_v6 (F := Ideal) x0 (ix3 b t k)
      = (x0 (ix3 b t k) - Adapter.mean (rowOf x0 b t)) * (x0 (ix3 b t k) - Adapter.mean (rowOf x0 b t)) := fun k => by
    rw [val_main_v6_apply, val_main_v5_apply, val_main_v4_apply]
    have e4 : idx_main_v4 (ix3 b t k) = ix3 b t (0 : Fin 1) := funext fun a => Fin.ext (by
      match a with | ⟨0, _⟩ => rfl | ⟨1, _⟩ => rfl | ⟨2, _⟩ => rfl)
    rw [e4, mean_apply]
    rfl
  simp only [e7, e6, Ideal.hostDivf_def, Ideal.ofBits_def, Ideal.ofBits_zero_f32, zero_add]
  rfl

/-- The normalised, scaled and shifted array at `(b, t, k)`. -/
theorem normed_apply (x0 : S16x4096x768.Idx → EReal) (x1 x2 : S768.Idx → EReal) (b : Fin 16) (t : Fin 4096) (k : Fin 768) :
    val_main_v23 (F := Ideal) x0 x1 x2 (ix3 b t k)
      = Adapter.normed (rowOf x0 b t) (Adapter.varR (rowOf x0 b t)) (fun k => x1 (ix1 k)) (fun k => x2 (ix1 k)) k := by
  rw [val_main_v23_apply, val_main_v20_apply, val_main_v17_apply, val_main_v12_apply, val_main_v11_apply, val_main_v16_apply,
    val_main_v15_apply, val_main_v14_apply, val_main_v13_apply, val_main_cst_3_apply, val_main_v19_apply, val_main_v18_apply,
    val_main_v22_apply, val_main_v21_apply]
  have e11 : idx_main_v11 (ix3 b t k) = ix3 b t (0 : Fin 1) := funext fun a => Fin.ext (by
    match a with | ⟨0, _⟩ => rfl | ⟨1, _⟩ => rfl | ⟨2, _⟩ => rfl)
  have e16 : idx_main_v16 (ix3 b t k) = ix3 b t (0 : Fin 1) := funext fun a => Fin.ext (by
    match a with | ⟨0, _⟩ => rfl | ⟨1, _⟩ => rfl | ⟨2, _⟩ => rfl)
  have e19 : idx_main_v18 (idx_main_v19 (ix3 b t k)) = ix1 k := funext fun a => Fin.ext (by
    match a with | ⟨0, _⟩ => rfl)
  have e22 : idx_main_v21 (idx_main_v22 (ix3 b t k)) = ix1 k := funext fun a => Fin.ext (by
    match a with | ⟨0, _⟩ => rfl)
  rw [e11, e16, e19, e22, mean_apply, var_apply]
  rfl

/-- The hidden array at `(b, t, j)`, from row `(b, t)` of the normalised array. -/
theorem hidden_apply (x0 : S16x4096x768.Idx → EReal) (x1 x2 : S768.Idx → EReal) (x3 : S768x64.Idx → EReal) (x4 : S64.Idx → EReal)
    (b : Fin 16) (t : Fin 4096) (j : Fin 64) :
    val_main_v28 (F := Ideal) x0 x1 x2 x3 x4 (ix3 b t j)
      = Adapter.hidden (fun k => val_main_v23 (F := Ideal) x0 x1 x2 (ix3 b t k)) (fun k j => x3 (ix2 k j)) (fun j => x4 (ix1 j)) j := by
  rw [val_main_v28_apply, val_main_v27_apply, val_main_v24_apply, val_main_v26_apply, val_main_v25_apply,
    val_main_call0_v0_apply, val_main_call0_cst_apply]
  have el : ∀ k, lidx_main_v24 (ix3 b t j) k = ix3 b t k := fun k => funext fun a => Fin.ext (by
    match a with | ⟨0, _⟩ => rfl | ⟨1, _⟩ => rfl | ⟨2, _⟩ => rfl)
  have er : ∀ k, ridx_main_v24 (ix3 b t j) k = ix2 k j := fun k => funext fun a => Fin.ext (by
    match a with | ⟨0, _⟩ => rfl | ⟨1, _⟩ => rfl)
  have e26 : idx_main_v25 (idx_main_v26 (ix3 b t j)) = ix1 j := funext fun a => Fin.ext (by
    match a with | ⟨0, _⟩ => rfl)
  simp only [el, er, e26, Ideal.maximumf_def, Ideal.addf_def, Ideal.ofBits_def, Ideal.ofBits_zero_f32]
  rfl

/-- The result at `(b, t, d)`, from row `(b, t)` of the hidden array. -/
theorem out_apply (x0 : S16x4096x768.Idx → EReal) (x1 x2 : S768.Idx → EReal) (x3 : S768x64.Idx → EReal) (x4 : S64.Idx → EReal)
    (x5 : S64x768.Idx → EReal) (x6 : S768.Idx → EReal) (b : Fin 16) (t : Fin 4096) (d : Fin 768) :
    val_main_v34 (F := Ideal) x0 x1 x2 x3 x4 x5 x6 (ix3 b t d)
      = Adapter.outRow (fun j => val_main_v28 (F := Ideal) x0 x1 x2 x3 x4 (ix3 b t j)) (fun j d => x5 (ix2 j d)) (fun d => x6 (ix1 d)) d := by
  rw [val_main_v34_apply, val_main_v32_apply, val_main_v29_apply, val_main_v31_apply, val_main_v30_apply,
    val_main_v33_apply, val_main_cst_4_apply]
  have el : ∀ k, lidx_main_v29 (ix3 b t d) k = ix3 b t k := fun k => funext fun a => Fin.ext (by
    match a with | ⟨0, _⟩ => rfl | ⟨1, _⟩ => rfl | ⟨2, _⟩ => rfl)
  have er : ∀ k, ridx_main_v29 (ix3 b t d) k = ix2 k d := fun k => funext fun a => Fin.ext (by
    match a with | ⟨0, _⟩ => rfl | ⟨1, _⟩ => rfl)
  have e31 : idx_main_v30 (idx_main_v31 (ix3 b t d)) = ix1 d := funext fun a => Fin.ext (by
    match a with | ⟨0, _⟩ => rfl)
  simp only [el, er, e31, Ideal.mulf_def, Ideal.addf_def, Ideal.ofBits_def]
  rfl

/-- Entry `(b, t, d)` of the reference's result: the adapter of row `(b, t)`, the variance in its
    mean-of-squared-deviations form. -/
theorem ref_apply (x0 : S16x4096x768.Idx → EReal) (x1 x2 : S768.Idx → EReal) (x3 : S768x64.Idx → EReal) (x4 : S64.Idx → EReal)
    (x5 : S64x768.Idx → EReal) (x6 : S768.Idx → EReal) (b : Fin 16) (t : Fin 4096) (d : Fin 768) :
    val_main_v34 (F := Ideal) x0 x1 x2 x3 x4 x5 x6 (ix3 b t d)
      = Adapter.adapterRow (Adapter.varR (rowOf x0 b t)) (rowOf x0 b t) (fun k => x1 (ix1 k)) (fun k => x2 (ix1 k))
          (fun k j => x3 (ix2 k j)) (fun j => x4 (ix1 j)) (fun j d => x5 (ix2 j d)) (fun d => x6 (ix1 d)) d := by
  rw [out_apply]
  unfold Adapter.adapterRow
  congr 1
  funext j
  rw [hidden_apply]
  congr 1
  funext k
  rw [normed_apply]

end Cert.ReferenceIdeal.RefRow

end
-- ==== Proof.LibFiniteEntry.lean ====
/-
  An entry that passes the test "its absolute value is below +∞" is a real number.

  A finiteness precondition prints, per float array, as: every entry's absolute value compares below the word of `+∞`.
  On the extended reals the absolute value is `max a (−a)`, the word `0x7F800000` denotes `⊤`, and `max a (−a) < ⊤`
  excludes both `⊤` and `⊥`: the entry is a real number (`real_of_abs_lt_top`). The all-true test over a whole array
  reduces to one index of a rank-0 result, which has a single index (the `Subsingleton` instance).
-/
import Idealize.ShloMosaic.PureOps.Ideal
import Idealize.ShloMosaic.PureOps.Ideal.Laws

noncomputable section

namespace Cert.FiniteEntry

open Idealize.ShloMosaic

/-- The f32 word of `+∞` denotes `⊤`. -/
theorem ofBits_inf : Ideal.ofBits .f32 0x7F800000#32 = (⊤ : EReal) := by
  simp [Ideal.ofBits, Ideal.ieee]

/-- An extended real whose absolute value compares below `+∞` is a real number. -/
theorem real_of_abs_lt_top (a : EReal)
    (h : FloatOps.cmpf (F := Ideal) (φ := .f32) .olt (FloatOps.absf (F := Ideal) (φ := .f32) a)
      (FloatOps.ofBits (F := Ideal) .f32 0x7F800000#32) = 1#1) :
    ∃ r : ℝ, a = (r : EReal) := by
  rw [Ideal.cmpf_def, Ideal.absf_def, Ideal.ofBits_def, ofBits_inf] at h
  have hlt : max a (-a) < ⊤ := by
    by_contra hn
    simp [Ideal.cmp, hn] at h
  induction a using EReal.rec with
  | bot => simp at hlt
  | top => simp at hlt
  | coe r => exact ⟨r, rfl⟩

/-- A rank-0 array has one index. -/
instance : Subsingleton (⟨0, ![]⟩ : Shape).Idx := ⟨fun a b => funext fun d => d.elim0⟩

end Cert.FiniteEntry

end
-- ==== Proof.Finite.lean ====
/-
  What the precondition says of the input `x`: every entry is a real number.

  The precondition is a conjunction of seven tests, one per argument array, each "every entry's absolute value is
  below +∞"; the test of `x` is the innermost left conjunct. An extended real whose absolute value `max a (−a)`
  is below `+∞` is neither `+∞` nor `−∞`, so it is a real number.
-/
import proofs.«176521_j59270548685191_2_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx
import proofs.«176521_j59270548685191_2_alg».proof.Proof.LibFiniteEntry

noncomputable section

namespace Cert.Finite

open Idealize.ShloMosaic Cert.Pre_finite_inputs

/-- Under the precondition every entry of the first argument is a real number. -/
theorem x_real [Cert.Pre_finite_inputs.Facts] (a0 : FVec Ideal S16x4096x768 .f32) (a1 a2 : FVec Ideal S768 .f32)
    (a3 : FVec Ideal S768x64 .f32) (a4 : FVec Ideal S64 .f32) (a5 : FVec Ideal S64x768 .f32) (a6 : FVec Ideal S768 .f32)
    (h : Cert.Pre_finite_inputs.fn (F := Ideal) a0 a1 a2 a3 a4 a5 a6 = fun _ => 1#1) (i : S16x4096x768.Idx) :
    ∃ r : ℝ, a0 i = (r : EReal) := by
  have h0 := congrFun h ValueIdx.ix0
  unfold Cert.Pre_finite_inputs.fn Cert.Pre_finite_inputs.fn_part1 at h0
  dsimp only at h0
  obtain ⟨h1, -⟩ := IntOp.andi_eq_one.mp h0
  obtain ⟨h2, -⟩ := IntOp.andi_eq_one.mp h1
  obtain ⟨h3, -⟩ := IntOp.andi_eq_one.mp h2
  obtain ⟨h4, -⟩ := IntOp.andi_eq_one.mp h3
  obtain ⟨h5, -⟩ := IntOp.andi_eq_one.mp h4
  obtain ⟨h6, -⟩ := IntOp.andi_eq_one.mp h5
  exact Cert.FiniteEntry.real_of_abs_lt_top (a0 i) (Host.reduce_andi_all _ _ _ _ _ h6 i)

end Cert.Finite

end
-- ==== Proof.lean ====
/-
  The certificate: a fused LayerNorm-adapter kernel against its jnp reference, on the extended reals.

  Both programs compute, for every row `r = x[b, t, :]` of the input,
  `((max (h · W_down + b_down) 0) · W_up + b_up) · 0.1` with `h = (r − μ) · rsqrt(v + ε) · γ + β` and `μ` the row's
  mean. They differ in the variance `v`: the kernel takes the mean of the squares minus the square of the mean, the
  reference the mean of the squared deviations from the mean. Under the precondition every entry of `x` is a real
  number, and on a row of real numbers the two variances are the same number; everything else is the same formula of
  the same extended reals (a matrix product is a sum over the contracted coordinate on both sides, a change of float
  format is the identity, the three float words 768.0, ε and 0.1 are the same words on both sides).

  The kernel works on the input flattened to `[65536, 768]`, 2048 rows per grid point and 512 rows per trip of a loop
  inside the body; the modules imported here read its stores back into one function of the argument arrays
  (KernelRow, KernelBlock, KernelArray, KernelResult), read the reference's operations at an entry (RefRow), and
  extract the finiteness of `x` from the precondition (Finite). The three frame claims are the generated frames (the
  reference's is its run with the result dropped); the idealization rewrote nothing, so `preserves` is trivial.
-/
import proofs.«176521_j59270548685191_2_alg».proof.Defs
import proofs.«176521_j59270548685191_2_alg».proof.Proof.Gen.Kernel
import proofs.«176521_j59270548685191_2_alg».proof.Proof.Gen.Kernel.Skeleton
import proofs.«176521_j59270548685191_2_alg».proof.Proof.Gen.Kernel.Loops
import proofs.«176521_j59270548685191_2_alg».proof.Proof.Gen.Kernel.Launch
import proofs.«176521_j59270548685191_2_alg».proof.Proof.Gen.Kernel.Points
import proofs.«176521_j59270548685191_2_alg».proof.Proof.Gen.Kernel.Frame
import proofs.«176521_j59270548685191_2_alg».proof.Proof.Gen.KernelIdeal
import proofs.«176521_j59270548685191_2_alg».proof.Proof.Gen.KernelIdeal.Skeleton
import proofs.«176521_j59270548685191_2_alg».proof.Proof.Gen.KernelIdeal.Loops
import proofs.«176521_j59270548685191_2_alg».proof.Proof.Gen.KernelIdeal.Launch
import proofs.«176521_j59270548685191_2_alg».proof.Proof.Gen.KernelIdeal.Points
import proofs.«176521_j59270548685191_2_alg».proof.Proof.Gen.KernelIdeal.Frame
import proofs.«176521_j59270548685191_2_alg».proof.Proof.Gen.ReferenceIdeal
import proofs.«176521_j59270548685191_2_alg».proof.Proof.Gen.ReferenceIdeal.Run
import proofs.«176521_j59270548685191_2_alg».proof.Proof.Gen.ReferenceIdeal.Read
import proofs.«176521_j59270548685191_2_alg».proof.Proof.Gen.Pre_finite_inputs
import proofs.«176521_j59270548685191_2_alg».proof.Proof.AdapterArray
import proofs.«176521_j59270548685191_2_alg».proof.Proof.KernelResult
import proofs.«176521_j59270548685191_2_alg».proof.Proof.RefRow
import proofs.«176521_j59270548685191_2_alg».proof.Proof.Finite
import Idealize.ShloMosaic.Adequacy
import Idealize.ShloMosaic.Init

noncomputable section

namespace Cert.Proof

open Idealize.ShloMosaic Idealize.ShloMosaic.ValueIdx Idealize.SL.Sem

/-- The kernel as printed runs and leaves its arguments unchanged: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The reference's result array: the adapter of every row of `x`, the variance as the mean of the squared deviations. -/
theorem ref_eq (x0 : Cert.ReferenceIdeal.S16x4096x768.Idx → EReal) (x1 x2 : Cert.ReferenceIdeal.S768.Idx → EReal)
    (x3 : Cert.ReferenceIdeal.S768x64.Idx → EReal) (x4 : Cert.ReferenceIdeal.S64.Idx → EReal)
    (x5 : Cert.ReferenceIdeal.S64x768.Idx → EReal) (x6 : Cert.ReferenceIdeal.S768.Idx → EReal) :
    Cert.ReferenceIdeal.Read.val_main_v34 (F := Ideal) x0 x1 x2 x3 x4 x5 x6
      = Cert.Adapter.resultFn Cert.Adapter.varR x0 x1 x2 x3 x4 x5 x6 := by
  funext i
  obtain ⟨b, t, d, rfl⟩ : ∃ (b : Fin 16) (t : Fin 4096) (d : Fin 768), i = ix3 b t d := ⟨i 0, i 1, i 2, eq_ix3 i⟩
  exact Cert.ReferenceIdeal.RefRow.ref_apply x0 x1 x2 x3 x4 x5 x6 b t d

/-- From memories agreeing on the arguments both idealized programs end with the same result array: the kernel's is
    the adapter with the variance as mean of squares minus squared mean, the reference's the adapter with the variance as
    mean of squared deviations, and on the real-valued `x` the precondition grants these are one array. -/
theorem algebraic : Cert.algebraic_KernelIdeal_ReferenceIdeal := by
  intro m ρ m' ρ' hpre hagree
  refine ⟨fun c => Cert.Adapter.resultFn Cert.Adapter.varK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, ref_eq]
  obtain ⟨e0, e1, e2, e3, e4, e5, e6⟩ := hagree c
  rw [e0, e1, e2, e3, e4, e5, e6]
  exact (Cert.Adapter.resultFn_var _ _ _ _ _ _ _ (Cert.Finite.x_real _ _ _ _ _ _ _ (hpre c))).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
